-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg2) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S100000x128 .f32) (main_arg1 : FVec F S128x128 .f32) (main_arg2 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S100000x128 : Shape := ⟨2, ![100000, 128]⟩
abbrev S128x128 : Shape := ⟨2, ![128, 128]⟩
abbrev S24576x128 : Shape := ⟨2, ![24576, 128]⟩
abbrev S128x100000 : Shape := ⟨2, ![128, 100000]⟩

abbrev nBuf : Space → Nat
  | .hbm => 6
  | .vmem => 8
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128x128, .f32⟩
  | .hbm, ⟨3, _⟩ => ⟨S100000x128, .f32⟩
  | .hbm, ⟨4, _⟩ => ⟨S128x128, .f32⟩
  | .hbm, ⟨5, _⟩ => ⟨S128x100000, .f32⟩
  | .local _ .vmem, ⟨0, _⟩ => ⟨S24576x128, .f32⟩
  | .local _ .vmem, ⟨1, _⟩ => ⟨S24576x128, .f32⟩
  | .local _ .vmem, ⟨2, _⟩ => ⟨S128x128, .f32⟩
  | .local _ .vmem, ⟨3, _⟩ => ⟨S128x128, .f32⟩
  | .local _ .vmem, ⟨4, _⟩ => ⟨S24576x128, .f32⟩
  | .local _ .vmem, ⟨5, _⟩ => ⟨S24576x128, .f32⟩
  | .local _ .vmem, ⟨6, _⟩ => ⟨S128x128, .f32⟩
  | .local _ .vmem, ⟨7, _⟩ => ⟨S128x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨1, ![5], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S24576x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S24576x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S24576x128_S24576x128_0_0 : ∀ a, (![0, 0] : Fin 2 → Nat) a + S24576x128.size a ≤ S24576x128.size a
  h_S24576x128 : 0 < S24576x128.numel
  transposes_S100000x128_S128x100000_1_0 : S100000x128.Transposes [1, 0] S128x100000
  dot_S128x128_S128x128_S128x128_1_1_0_0_n_n_wf : DotDims.WF S128x128 S128x128 S128x128 [1] [1] [0] [0] [] []
  dot_S24576x128_S128x128_S24576x128_1_0_0_1_n_n_wf : DotDims.WF S24576x128 S128x128 S24576x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S24576x128.size a < S100000x128.size a
  hwx0_0 : ∀ i : grid0.Coords, EltTy.bits .f32 = 32 ∨ (Rect.unit (s := S100000x128) (fun a => cc0_transform_0 i a * S24576x128.size a) (fun a => (Pipeline.Clip.of (cc0_transform_0 i a) (S24576x128.size a) (S100000x128.size a)).extent (S24576x128.size a)) fun a => Pipeline.Clip.inb (Pipeline.Clip.ok_of (hstart0_0 i a))).WholeWords (EltTy.packing .f32)
  hwxs0_0 : ∀ i : grid0.Coords, EltTy.bits .f32 = 32 ∨ (Rect.unit (s := S24576x128) (fun _ => 0) (fun a => (Pipeline.Clip.of (cc0_transform_0 i a) (S24576x128.size a) (S100000x128.size a)).extent (S24576x128.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S24576x128.size a < S100000x128.size a
  hwx0_3 : ∀ i : grid0.Coords, EltTy.bits .f32 = 32 ∨ (Rect.unit (s := S100000x128) (fun a => cc0_transform_3 i a * S24576x128.size a) (fun a => (Pipeline.Clip.of (cc0_transform_3 i a) (S24576x128.size a) (S100000x128.size a)).extent (S24576x128.size a)) fun a => Pipeline.Clip.inb (Pipeline.Clip.ok_of (hstart0_3 i a))).WholeWords (EltTy.packing .f32)
  hwxs0_3 : ∀ i : grid0.Coords, EltTy.bits .f32 = 32 ∨ (Rect.unit (s := S24576x128) (fun _ => 0) (fun a => (Pipeline.Clip.of (cc0_transform_3 i a) (S24576x128.size a) (S100000x128.size a)).extent (S24576x128.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)

variable [Facts₀]

def dot_S128x128_S128x128_S128x128_1_1_0_0_n_n : DotDims S128x128 S128x128 S128x128 where
  lhsContracting := [1]
  rhsContracting := [1]
  lhsNonContracting := [0]
  rhsNonContracting := [0]
  lhsBatch := []
  rhsBatch := []
  wf := dot_S128x128_S128x128_S128x128_1_1_0_0_n_n_wf
def dot_S24576x128_S128x128_S24576x128_1_0_0_1_n_n : DotDims S24576x128 S128x128 S24576x128 where
  lhsContracting := [1]
  rhsContracting := [0]
  lhsNonContracting := [0]
  rhsNonContracting := [1]
  lhsBatch := []
  rhsBatch := []
  wf := dot_S24576x128_S128x128_S24576x128_1_0_0_1_n_n_wf

abbrev win0_0 : Pipeline.Window sig grid0 :=
  Pipeline.Window.ofSpecClip (Memref.whole main_arg0) S24576x128.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpecClip (Memref.whole main_v0_0) S24576x128.size cc0_transform_3 reads0_3 true false 2 stage0_3 sem0_3
    hrank0 hreads0_3 hstart0_3 nbuf0_3 (Memref.isWhole_whole _) hwx0_3 hwxs0_3 hstage0_3

abbrev win0_4 : Pipeline.Window sig grid0 :=
  Pipeline.Window.ofSpec (Memref.whole main_v0_1) S128x128.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond1 i == 1#1) | ⟨_ + 5, h⟩ => absurd h (Nat.not_lt.2 (Nat.le_add_left _ _))

class Facts : Prop extends Facts₀ where

variable [Facts]
-- ==== ReferenceIdeal.lean ====
abbrev S100000x128 : Shape := ⟨2, ![100000, 128]⟩
abbrev S128x128 : Shape := ⟨2, ![128, 128]⟩
abbrev S128x100000 : Shape := ⟨2, ![128, 100000]⟩

abbrev nBuf : Space → Nat
  | .hbm => 6
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128x128, .f32⟩
  | .hbm, ⟨3, _⟩ => ⟨S100000x128, .f32⟩
  | .hbm, ⟨4, _⟩ => ⟨S128x100000, .f32⟩
  | .hbm, ⟨5, _⟩ => ⟨S128x100000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  transposes_S100000x128_S128x100000_1_0 : S100000x128.Transposes [1, 0] S128x100000
  dot_S100000x128_S128x128_S100000x128_1_0_0_1_n_n_wf : DotDims.WF S100000x128 S128x128 S100000x128 [1] [0] [0] [1] [] []
  dot_S128x128_S128x100000_S128x100000_1_0_0_1_n_n_wf : DotDims.WF S128x128 S128x100000 S128x100000 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S128x128_S128x100000_S128x100000_1_0_0_1_n_n : DotDims S128x128 S128x100000 S128x100000 where
  lhsContracting := [1]
  rhsContracting := [0]
  lhsNonContracting := [0]
  rhsNonContracting := [1]
  lhsBatch := []
  rhsBatch := []
  wf := dot_S128x128_S128x100000_S128x100000_1_0_0_1_n_n_wf

class Facts : Prop extends Facts₀ where

variable [Facts]
-- ==== Proof.Spec.lean ====
/-
  The graph-convolution layer as two index-by-index functions on the extended reals.

  With X the node features (100000 × 128), W the weight (128 × 128) and A the dense adjacency
  (128 × 128), the layer's first result is the 128 × 100000 array

      out (m, n) = Σ_j A (m, j) · Σ_k X (n, k) · W (k, j)                       (`refOut`)

  — first the product X · W, then its transpose multiplied from the left by A. The same array can be
  computed by first combining the two small matrices, C (k, m) = Σ_j W (k, j) · A (m, j)  (`combine`),
  then one streaming product of the rows of X with C, y (n, m) = Σ_k X (n, k) · C (k, m)  (`rowsTimes`),
  read transposed:

      out (m, n) = Σ_k X (n, k) · Σ_j W (k, j) · A (m, j)                       (`kernelOut`).

  The two are equal wherever every entry is a real number (distributivity and an exchange of the two
  finite sums); on the extended reals distributivity fails at the infinities, so the equality is stated
  for finite entries.
-/
import Idealize.ShloMosaic.PureOps.Ideal
import Idealize.ShloMosaic.Lib.ValueIdx

noncomputable section

open scoped BigOperators

namespace Cert.GraphConv

open Idealize.ShloMosaic Idealize.ShloMosaic.ValueIdx

/-- The node-feature array's shape, 100000 × 128. -/
abbrev SNodes : Shape := ⟨2, ![100000, 128]⟩
/-- The weight's and the adjacency's shape, 128 × 128. -/
abbrev SSq : Shape := ⟨2, ![128, 128]⟩
/-- The result's shape, 128 × 100000. -/
abbrev SOut : Shape := ⟨2, ![128, 100000]⟩

/-- The combined small matrix: `combine W A (k, m) = Σ_j W (k, j) · A (m, j)`, that is W · Aᵀ. -/
def combine (W A : SSq.Idx → EReal) : SSq.Idx → EReal :=
  fun i => ∑ j : Fin 128, W (ix2 (i 0 : Fin 128) j) * A (ix2 (i 1 : Fin 128) j)

/-- The rows of `X` times a 128 × 128 matrix: `rowsTimes X C (n, m) = Σ_k X (n, k) · C (k, m)`. -/
def rowsTimes (X : SNodes.Idx → EReal) (C : SSq.Idx → EReal) : SNodes.Idx → EReal :=
  fun i => ∑ k : Fin 128, X (ix2 (i 0 : Fin 100000) k) * C (ix2 k (i 1 : Fin 128))

/-- The layer's result as the streaming form computes it: `(X · (W · Aᵀ))ᵀ`. -/
def kernelOut (X : SNodes.Idx → EReal) (W A : SSq.Idx → EReal) : SOut.Idx → EReal :=
  fun i => rowsTimes X (combine W A) (ix2 (i 1 : Fin 100000) (i 0 : Fin 128))

/-- The layer's result as the two-product form computes it: `A · (X · W)ᵀ`. -/
def refOut (X : SNodes.Idx → EReal) (W A : SSq.Idx → EReal) : SOut.Idx → EReal :=
  fun i => ∑ j : Fin 128, A (ix2 (i 0 : Fin 128) j) * ∑ k : Fin 128, X (ix2 (i 1 : Fin 100000) k) * W (ix2 k j)

end Cert.GraphConv

end
-- ==== Proof.SpecLaw.lean ====
/-
  The algebraic law of the graph-convolution layer: the two arrangements of the double sum agree
  wherever every entry is a real number.

      Σ_j A (m, j) · Σ_k X (n, k) · W (k, j)  =  Σ_k X (n, k) · Σ_j W (k, j) · A (m, j)

  Both sides are the sum of the products A (m, j) · X (n, k) · W (k, j) over all pairs (j, k): on
  the left the factor A (m, j) is distributed over the inner sum, on the right X (n, k) is, and the
  two finite sums are exchanged. Distributivity fails on the extended reals at the infinities, so the
  entries are first written as coercions of reals; the coercion commutes with products and finite
  sums, and the law is then a statement about real numbers.
-/
import proofs.«101016_g69372311765224_cont_9to1_m_644_20_alg».proof.Proof.Spec

noncomputable section

open scoped BigOperators

namespace Cert.GraphConv

open Idealize.ShloMosaic Idealize.ShloMosaic.ValueIdx

/-- The coercion of the reals into the extended reals commutes with finite sums. -/
theorem coe_real_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The exchange of the two sums over the reals: distribute each outer factor over its inner sum,
swap the sums, and reorder the three factors. -/
theorem real_law {J K : Type} [Fintype J] [Fintype K] (a : J → ℝ) (x : K → ℝ) (w : K → J → ℝ) :
    ∑ j, a j * ∑ k, x k * w k j = ∑ k, x k * ∑ j, w k j * a j := by
  simp only [Finset.mul_sum]
  rw [Finset.sum_comm]
  refine Finset.sum_congr rfl fun k _ => Finset.sum_congr rfl fun j _ => ?_
  ring

/-- With real entries, the two-product form A · (X · W)ᵀ and the streaming form (X · (W · Aᵀ))ᵀ
are the same array. -/
theorem refOut_eq_kernelOut (X : SNodes.Idx → EReal) (W A : SSq.Idx → EReal)
    (hX : ∀ i, ∃ r : ℝ, X i = (r : EReal)) (hW : ∀ i, ∃ r : ℝ, W i = (r : EReal))
    (hA : ∀ i, ∃ r : ℝ, A i = (r : EReal)) : refOut X W A = kernelOut X W A := by
  choose x hx using hX
  choose w hw using hW
  choose a ha using hA
  obtain rfl : X = fun i => (x i : EReal) := funext hx
  obtain rfl : W = fun i => (w i : EReal) := funext hw
  obtain rfl : A = fun i => (a i : EReal) := funext ha
  funext i
  obtain ⟨m, n, rfl⟩ : ∃ (m : Fin 128) (n : Fin 100000), i = ix2 m n := ⟨i 0, i 1, eq_ix2 i⟩
  show (∑ j : Fin 128, (a (ix2 m j) : EReal) * ∑ k : Fin 128, (x (ix2 n k) : EReal) * (w (ix2 k j) : EReal))
      = ∑ k : Fin 128, (x (ix2 n k) : EReal) * ∑ j : Fin 128, (w (ix2 k j) : EReal) * (a (ix2 m j) : EReal)
  simp only [← EReal.coe_mul, ← coe_real_sum]
  exact congrArg _ (real_law (fun j => a (ix2 m j)) (fun k => x (ix2 n k)) (fun k j => w (ix2 k j)))

end Cert.GraphConv

end
-- ==== Proof.RefValue.lean ====
/-
  The two-product program computes the layer's result in the two-product form.

  The program has three stages: the product of the node features with the weight,
  P (n, j) = Σ_k X (n, k) · W (k, j); its transpose, T (j, n) = P (n, j); and the product of the
  adjacency with that transpose, out (m, n) = Σ_j A (m, j) · T (j, n). Reading each stage at an
  index and composing the three index maps gives

      out (m, n) = Σ_j A (m, j) · Σ_k X (n, k) · W (k, j),

  which is the specification's two-product form entry by entry.
-/
import proofs.«101016_g69372311765224_cont_9to1_m_644_20_alg».proof.Proof.Gen.ReferenceIdeal.Read
import proofs.«101016_g69372311765224_cont_9to1_m_644_20_alg».proof.Proof.Spec

noncomputable section

open scoped BigOperators

namespace Cert.ReferenceIdeal.RefValue

open Cert.ReferenceIdeal Cert.ReferenceIdeal.Read Idealize.ShloMosaic Idealize.ShloMosaic.ValueIdx

/-- The left operand of the second product, for the entry (m, n), is read at row m, column j. -/
theorem lidx_v2_eq (m : Fin 128) (n : Fin 100000) (j : Fin 128) :
    lidx_main_v2 (ix2 m n) j = ix2 m j :=
  funext fun a => Fin.ext (by match a with | ⟨0, _⟩ => rfl | ⟨1, _⟩ => rfl)

/-- The transposed first product, read where the second product's right operand is read for the
entry (m, n), is the first product at row n, column j. -/
theorem idx_v1_ridx_v2_eq (m : Fin 128) (n : Fin 100000) (j : Fin 128) :
    idx_main_v1 (ridx_main_v2 (ix2 m n) j) = ix2 n j :=
  funext fun a => Fin.ext (by match a with | ⟨0, _⟩ => rfl | ⟨1, _⟩ => rfl)

/-- The left operand of the first product, for the entry (n, j), is read at row n, column k. -/
theorem lidx_v0_eq (n : Fin 100000) (j k : Fin 128) :
    lidx_main_v0 (ix2 n j) k = ix2 n k :=
  funext fun a => Fin.ext (by match a with | ⟨0, _⟩ => rfl | ⟨1, _⟩ => rfl)

/-- The right operand of the first product, for the entry (n, j), is read at row k, column j. -/
theorem ridx_v0_eq (n : Fin 100000) (j k : Fin 128) :
    ridx_main_v0 (ix2 n j) k = ix2 k j :=
  funext fun a => Fin.ext (by match a with | ⟨0, _⟩ => rfl | ⟨1, _⟩ => rfl)

/-- The program's result is the two-product form of the layer, with the adjacency as the program's
second argument and the weight as its third. -/
theorem val_main_v2_eq_refOut (x0 : (⟨Cert.ReferenceIdeal.S100000x128, .f32⟩ : BufTy).Contents (Elt Ideal))
    (x1 x2 : (⟨Cert.ReferenceIdeal.S128x128, .f32⟩ : BufTy).Contents (Elt Ideal)) :
    Cert.ReferenceIdeal.Read.val_main_v2 (F := Ideal) x0 x1 x2 = Cert.GraphConv.refOut x0 x2 x1 := by
  funext i
  obtain ⟨m, n, rfl⟩ : ∃ (m : Fin 128) (n : Fin 100000), i = ix2 m n := ⟨i 0, i 1, eq_ix2 i⟩
  rw [val_main_v2_apply]
  show _ = ∑ j : Fin 128, x1 (ix2 m j) * ∑ k : Fin 128, x0 (ix2 n k) * x2 (ix2 k j)
  refine Finset.sum_congr rfl fun j _ => ?_
  rw [val_main_v1_apply, val_main_v0_apply, lidx_v2_eq, idx_v1_ridx_v2_eq]
  refine congrArg _ (Finset.sum_congr rfl fun k _ => ?_)
  rw [lidx_v0_eq, ridx_v0_eq]

end Cert.ReferenceIdeal.RefValue

end
-- ==== Proof.Finite.lean ====
/-
  From the finiteness precondition to "every entry is a real number".

  The precondition computes, for each of the three argument arrays, whether |x| < +∞ holds at every
  entry (an elementwise comparison against the word of +∞, then a conjunction over the whole array),
  and takes the conjunction of the three answers. When the final answer is 1, each of the three
  conjunctions is 1, so each elementwise comparison is 1 at every index. On the extended reals
  |x| = max x (-x), and max x (-x) < ⊤ excludes both x = ⊤ and x = ⊥, so x is the coercion of a real.
-/
import proofs.«101016_g69372311765224_cont_9to1_m_644_20_alg».proof.Defs
import proofs.«101016_g69372311765224_cont_9to1_m_644_20_alg».proof.Proof.Gen.Pre_finite_inputs
import Idealize.ShloMosaic.Lib.ReduceAll
import Idealize.ShloMosaic.Lib.ValueIdx

noncomputable section

namespace Cert.Finite

open Idealize.ShloMosaic Cert.Pre_finite_inputs

/-- The rank-0 shape has exactly one index. -/
instance : Subsingleton S_.Idx := ⟨fun a b => funext fun d => d.elim0⟩

/-- The word 0x7F800000 denotes +∞. -/
theorem inf_word : Ideal.ofBits .f32 0x7F800000#32 = (⊤ : EReal) := by
  simp [Ideal.ofBits, Ideal.ieee]

/-- An extended real whose absolute value compares below +∞ is a real number. -/
theorem real_of_abs_lt_inf (x : Ideal .f32)
    (h : FloatOps.cmpf .olt (FloatOps.hostAbsf x) (FloatOps.ofBits (F := Ideal) .f32 0x7F800000#32) = 1#1) :
    ∃ r : ℝ, x = (r : EReal) := by
  change Ideal.cmp .olt (max (x : EReal) (-(x : EReal))) (Ideal.ofBits .f32 0x7F800000#32) = 1#1 at h
  rw [inf_word] at h
  unfold Ideal.cmp at h
  have hlt : max (x : EReal) (-(x : EReal)) < ⊤ := by
    by_contra hn
    simp [hn] at h
  induction x using EReal.rec with
  | bot => simp at hlt
  | coe r => exact ⟨r, rfl⟩
  | top => simp at hlt

/-- One array's part of the precondition: when the conjunction over the whole array of the
comparisons |x| < +∞ is 1, every entry is a real number. -/
theorem real_of_all {S : Shape} {axes : List (Fin S.rank)} (X : FVec Ideal S .f32)
    (hb : S_.BroadcastsInDim S (![] : Fin 0 → Fin S.rank)) (hr : S.ReducesTo axes S_) (hu : 0 < S_.numel)
    (h : Host.reduce IntOp.andi
        (cmpf .olt (Host.absf X) (broadcastInDim S ![] hb (constant (F := Ideal) S_ .f32 0x7F800000#32)))
        (constantI S_ 1 1#1) hr hu ValueIdx.ix0 = 1#1) (i : S.Idx) :
    ∃ r : ℝ, X i = (r : EReal) :=
  real_of_abs_lt_inf (X i) (Host.reduce_andi_all _ _ hr hu ValueIdx.ix0 h i)

/-- When the precondition holds of the three arrays, every entry of each is a real number. -/
theorem finite_of_fn [Cert.Pre_finite_inputs.Facts] (X : FVec Ideal Cert.Pre_finite_inputs.S100000x128 .f32)
    (A W : FVec Ideal Cert.Pre_finite_inputs.S128x128 .f32)
    (h : Cert.Pre_finite_inputs.fn (F := Ideal) X A W = fun _ => 1#1) :
    (∀ i, ∃ r : ℝ, X i = (r : EReal)) ∧ (∀ i, ∃ r : ℝ, A i = (r : EReal)) ∧ (∀ i, ∃ r : ℝ, W i = (r : EReal)) := by
  have h0 := congrFun h ValueIdx.ix0
  dsimp only [Cert.Pre_finite_inputs.fn] at h0
  obtain ⟨hXA, hW⟩ := IntOp.andi_eq_one.1 h0
  obtain ⟨hX, hA⟩ := IntOp.andi_eq_one.1 hXA
  exact ⟨real_of_all X _ _ _ hX, real_of_all A _ _ _ hA, real_of_all W _ _ _ hW⟩

end Cert.Finite

end
-- ==== Proof.KernelStep.lean ====
/-
  The kernel body of the kernel as printed, run once in each of its two control cases.

  The body is called at each of the five grid points with six whole VMEM memrefs: the row block of the node features
  (24576 × 128), the adjacency and the weight (128 × 128 each), the row block of the result (24576 × 128), the copy of
  the weight it returns (128 × 128) and a scratch (128 × 128). At the first point it copies the weight into the second
  output and stores the first product — weight times the transposed adjacency — into the scratch; at every point it
  stores the product of the row block with the scratch into the first output. Both runs are stated for any contents of
  the buffers, so that they apply whatever the fetch left past the array's end in the last, overhanging row block.
-/
import proofs.«101016_g69372311765224_cont_9to1_m_644_20_alg».proof.Proof.Gen.Kernel.Frame
import proofs.«101016_g69372311765224_cont_9to1_m_644_20_alg».proof.Proof.Gen.Kernel.Skeleton
import Idealize.ShloMosaic.Lib.Pipeline.Value
import Idealize.ShloMosaic.Lib.Pipeline.Kit
import Idealize.ShloMosaic.Lib.Pipeline.FrameBody
import Idealize.ShloMosaic.Lib.Pipeline.FrameSuffix
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The offsets of every access of the body, all zero. -/
theorem zero_offsets : (![0, 0] : Fin 2 → Nat) = fun _ => 0 := funext fun a => by fin_cases a <;> rfl

/-- One store through the whole-shape rectangle at zero offsets leaves its payload, read back through the view. -/
theorem read_one_store {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e) :
    v.read (Elt F) (v.writes (Elt F) f [⟨Rect.unit off S.size inb, w⟩]) = w := by
  rw [View.read_writes_eq_canon _ _ _ (fun y => ⟨_, List.mem_singleton_self _, View.mem_set_unit_zero h inb y⟩),
    View.canon_unit_zero h]

set_option maxHeartbeats 1000000 in
/-- THE BODY AT THE FIRST POINT (the branch taken). On whole memrefs — the three inputs' at contents `x0`, `x1`, `x2`, the two
    outputs' and the scratch at anything — the body copies the weight block `x2` into the second output, stores the product
    `k0_pay1 x2 x1` (the weight times the transposed adjacency) into the scratch, and stores the product of the row block `x0`
    with that scratch into the first output; the inputs are left as they were. -/
theorem body_first (c : Dev nD) (i : grid0.Coords) (hc : k0_cond1 i = 1#1)
    (arg1 : Memref sig .tc .vmem S24576x128 .f32) (harg1 : arg1.IsWhole) (arg2 : Memref sig .tc .vmem S128x128 .f32) (harg2 : arg2.IsWhole)
    (arg3 : Memref sig .tc .vmem S128x128 .f32) (harg3 : arg3.IsWhole) (arg4 : Memref sig .tc .vmem S24576x128 .f32) (harg4 : arg4.IsWhole)
    (arg5 : Memref sig .tc .vmem S128x128 .f32) (harg5 : arg5.IsWhole) (arg6 : Memref sig .tc .vmem S128x128 .f32) (harg6 : arg6.IsWhole)
    (x0 : Vec F S24576x128 .f32) (x1 x2 : Vec F S128x128 .f32) (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k0_pay2 x0 (k0_pay1 x2 x1)) ∗ owns (c : Thread nD τ) arg5 fullShare x2
            ∗ owns (c : Thread nD τ) arg6 fullShare (k0_pay1 x2 x1)) -∗ K ⟨⟩))
      ⊢ wp frame (wpE (defs₀ (F := F)) Variants.none c none) E (cc0__gcn_kernel i arg1 harg1 arg2 harg2 arg3 harg3 arg4 harg4 arg5 harg5 arg6 harg6) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%d3, %f3, %hf3, H3⟩, ⟨%d4, %f4, %hf4, H4⟩, ⟨%d5, %f5, %hf5, H5⟩, Hk⟩
  obtain rfl := harg1.eq_unread hf0; obtain rfl := harg2.eq_unread hf1; obtain rfl := harg3.eq_unread hf2
  sl_exec (disch := exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    refine (read_one_store _ _ zero_offsets _ _).trans ?_
    sl_unfold_words
    simp only [View.readAt_eq_ld, harg1.read_unread, harg2.read_unread, harg3.read_unread,
      View.ld_unit_zero (S := S24576x128) zero_offsets, View.ld_unit_zero (S := S128x128) zero_offsets]
    exact congrArg (k0_pay2 x0) (View.readCov_unit_zero (S := S128x128) _ zero_offsets _ _)
  isplitl [H4]
  · iexists _; isplitr
    swap; · iexact H4
    ipureintro
    refine (read_one_store _ _ zero_offsets _ _).trans ?_
    simp only [View.readAt_eq_ld, harg3.read_unread, View.ld_unit_zero (S := S128x128) zero_offsets]
  · iexists _; isplitr
    swap; · iexact H5
    ipureintro
    sl_unfold_words
    refine (read_one_store _ _ zero_offsets _ _).trans ?_
    simp only [View.readAt_eq_ld, harg3.read_unread, harg2.read_unread, View.ld_unit_zero (S := S128x128) zero_offsets]

set_option maxHeartbeats 1000000 in
/-- THE BODY AT EVERY LATER POINT (the branch not taken). The second output is not touched (left at whatever it held, `x4`),
    the scratch is read and left at its contents `s`, and the first output is stored the product of the row block `x0`
    with the scratch. -/
theorem body_later (c : Dev nD) (i : grid0.Coords) (hc : ¬k0_cond1 i = 1#1)
    (arg1 : Memref sig .tc .vmem S24576x128 .f32) (harg1 : arg1.IsWhole) (arg2 : Memref sig .tc .vmem S128x128 .f32) (harg2 : arg2.IsWhole)
    (arg3 : Memref sig .tc .vmem S128x128 .f32) (harg3 : arg3.IsWhole) (arg4 : Memref sig .tc .vmem S24576x128 .f32) (harg4 : arg4.IsWhole)
    (arg5 : Memref sig .tc .vmem S128x128 .f32) (harg5 : arg5.IsWhole) (arg6 : Memref sig .tc .vmem S128x128 .f32) (harg6 : arg6.IsWhole)
    (x0 : Vec F S24576x128 .f32) (x1 x2 x4 s : Vec F S128x128 .f32) (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare x4 ∗ owns (c : Thread nD τ) arg6 fullShare s
        ∗ (iprop(owns (c : Thread nD τ) arg1 fullShare x0 ∗ owns (c : Thread nD τ) arg2 fullShare x1 ∗ owns (c : Thread nD τ) arg3 fullShare x2
            ∗ owns (c : Thread nD τ) arg4 fullShare (k0_pay2 x0 s) ∗ owns (c : Thread nD τ) arg5 fullShare x4
            ∗ owns (c : Thread nD τ) arg6 fullShare s) -∗ K ⟨⟩))
      ⊢ wp frame (wpE (defs₀ (F := F)) Variants.none c none) E (cc0__gcn_kernel i arg1 harg1 arg2 harg2 arg3 harg3 arg4 harg4 arg5 harg5 arg6 harg6) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%d3, %f3, %hf3, H3⟩, ⟨%f4, %hf4, H4⟩, ⟨%f5, %hf5, H5⟩, Hk⟩
  obtain rfl := harg1.eq_unread hf0; obtain rfl := harg6.eq_unread hf5
  sl_exec (disch := exact hc)
  sl_step
  iapply Hk
  isplitl [H0]
  · iexists _; isplitr; · ipureintro; exact harg1.read_unread _
    iexact H0
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    refine (read_one_store _ _ zero_offsets _ _).trans ?_
    sl_unfold_words
    simp only [View.readAt_eq_ld, harg1.read_unread, harg6.read_unread,
      View.ld_unit_zero (S := S24576x128) zero_offsets, View.ld_unit_zero (S := S128x128) zero_offsets]
  isplitl [H4]
  · iexists _; isplitr; · ipureintro; exact hf4
    iexact H4
  · iexists _; isplitr; · ipureintro; exact harg6.read_unread _
    iexact H5

end Cert.Kernel.Body

end
-- ==== Proof.KernelData.lean ====
/-
  The proof data of the kernel as printed's one pipeline, and its body at a point of the grid.

  Five grid points; the row blocks of the node features and of the result move with the point, the last of them
  overhanging the arrays (100000 rows in blocks of 24576), so their transfers are cut at the array's end and nothing is
  said of the buffer's rows past it. The adjacency, the weight and the returned copy of the weight are one block each;
  the copy is stored at the first point and written back after the last. A scratch carries the combined matrix
  (weight times transposed adjacency) from the first point to every later one: the region invariant names its contents.
-/
import proofs.«101016_g69372311765224_cont_9to1_m_644_20_alg».proof.Proof.KernelStep

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch, the idle points, the staging memrefs -/

/-- The body's branch is taken at the first grid point only — decided over the grid. -/
theorem first_iff : ∀ t : Fin cfg0.N, k0_cond1 (grid0.coords t) = 1#1 ↔ t.val = 0 :=
  (by decide +kernel : ∀ t : Fin grid0.N, k0_cond1 (grid0.coords t) = 1#1 ↔ t.val = 0)

/-- The second output's window is live at the first point and idle at every later one. -/
theorem live4_first : ∀ t : Fin cfg0.N, t.val = 0 → cfg0.idle 4 (grid0.coords t) = false := by decide +kernel
theorem idle4_later : ∀ t : Fin cfg0.N, t.val ≠ 0 → cfg0.idle 4 (grid0.coords t) = true := by decide +kernel
/-- It is written back at the last point only. -/
theorem noflush4 : ∀ t : Fin cfg0.N, t.val ≠ 4 → (cfg0.win 4).flush t = false := by decide +kernel
theorem flush4_last : ∀ t : Fin cfg0.N, t.val = 4 → (cfg0.win 4).flush t = true := by decide +kernel

/-- Each window's current staging memref at point `t`, as the pipeline passes it to the body, and its wholeness. -/
abbrev ms0 (t : Fin cfg0.N) : Memref sig .tc .vmem S24576x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S24576x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x128 .f32 := win0_4.stage (cfg0.slots t 4)
abbrev hs4 (t : Fin cfg0.N) : (ms4 t).IsWhole := hstage0_4 ((cfg0.slots t 4).cast nbuf0_4)
/-- The scratch operand: a whole scoped buffer of the kernel's own. -/
abbrev scM : Memref sig .tc .vmem S128x128 .f32 := Memref.whole cc0_scratch0

/-- The class's region invariant with the scratch as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## What the buffers hold -/

/-- The row block of the node features at point `t` as a full staging block: the rows inside the array are the array's,
    the rows past its end (the last block overhangs) are filled with a zero word that nothing reads. -/
def rowsIn (c : Dev nD) (t : Fin cfg0.N) : Vec F S24576x128 .f32 :=
  win0_0.fill (grid0.coords t) (fun _ => Scalar.ofBits .f32 0#32) (iblk m c 0 t)

/-- The adjacency and the weight as the first point's blocks (each is one block, the whole array). -/
def adjBlock (c : Dev nD) : Vec F S128x128 .f32 := iblk m c 1 t0_0
def weightBlock (c : Dev nD) : Vec F S128x128 .f32 := iblk m c 2 t0_0

/-- The combined matrix the first point stores in the scratch and every point reads: the body's first product of the
    weight and the adjacency. -/
def combined (c : Dev nD) : Vec F S128x128 .f32 := k0_pay1 (weightBlock m c) (adjBlock m c)

/-- The region invariant before position `n`: before the first point the class's (the scratch at anything); afterwards
    the scratch at the combined matrix, and the generator register at some state. -/
def PhiS (c : Dev nD) : ℕ → sProp 𝕄
  | 0 => Pipeline.ΦA spec0 c
  | _ + 1 => iprop(iprop(owns (c : Thread nD τ) scM fullShare (combined m c)) ∗ (∃ r, prngReg c r))

/-- The proof data of the one pipeline on core `c`: the arrays as the region finds them; after the body at point `t`
    the inputs' buffers at their blocks, the first output's at the product of the row block with the combined matrix,
    the second output's at the weight; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => rowsIn m c t
    | ⟨1, _⟩ => iblk m c 1 t
    | ⟨2, _⟩ => iblk m c 2 t
    | ⟨3, _⟩ => k0_pay2 (rowsIn m c t) (combined m c)
    | ⟨4, _⟩ => weightBlock m c
  Φ t := PhiS m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = rowsIn m c t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = k0_pay2 (rowsIn m c t) (combined m c) := by dsimp only [dats]
theorem after4 (c : Dev nD) (t : Fin cfg0.N) : (dats m 0 c).after 4 t = weightBlock m c := by dsimp only [dats]

/-! ## What the body finds -/

/-- The row block's buffer was just fetched: the block on the rows inside the array, `d` past its end. -/
theorem before0 (c : Dev nD) (t : Fin cfg0.N) (d) :
    (dats m 0 c).before 0 t d = win0_0.fill (grid0.coords t) d (iblk m c 0 t) := by
  rw [(dats m 0 c).before_fetched 0 t (fetch0_0 t) d]
  unfold Dat.fetched Dat.blockOf iblk; rw [A_eq]; try rfl
/-- The adjacency's and the weight's buffers hold their blocks at every point. -/
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
/-- The first output's buffer is fresh at every point (it was written back at the point before). -/
theorem before3 (c : Dev nD) (t : Fin cfg0.N) (d) : (dats m 0 c).before 3 t d = d :=
  (dats m 0 c).before_out_reset 3 rfl t (by
    by_cases h : t.val = 0
    · exact .inl h
    · exact .inr ⟨h, flush0_3 _⟩) d
/-- The second output's buffer is fresh at the first point. -/
theorem before4_first (c : Dev nD) (t : Fin cfg0.N) (ht : t.val = 0) (d) : (dats m 0 c).before 4 t d = d :=
  (dats m 0 c).before_out_reset 4 rfl t (.inl ht) d

/-- The adjacency's and the weight's blocks are the same at every point (their block index does not move). -/
theorem iblk1_const (c : Dev nD) (t : Fin cfg0.N) : iblk m c 1 t = adjBlock m c := by
  rcases fin_N0 t with rfl | rfl | rfl | rfl | rfl <;> rfl
theorem iblk2_const (c : Dev nD) (t : Fin cfg0.N) : iblk m c 2 t = weightBlock m c := by
  rcases fin_N0 t with rfl | rfl | rfl | rfl | rfl <;> rfl

/-- The second output's buffer at every later point holds the weight: the first point left it there, no point in between
    stores into it or writes it back, and its window is not cut. -/
theorem before4_later (c : Dev nD) (t : Fin cfg0.N) (ht : t.val ≠ 0) (d) : (dats m 0 c).before 4 t d = weightBlock m c := by
  obtain ⟨n, hn⟩ := t
  induction n with
  | zero => exact absurd rfl ht
  | succ n ih =>
    have hN : n + 1 < 5 := lt_of_lt_of_eq hn N_0
    rw [(dats m 0 c).before_of_pos 4 ⟨n + 1, hn⟩ ht ((cfg0.win 4).fetch_out rfl _) d]
    rw [if_neg (by rw [noflush4 _ (by dsimp only; omega)]; exact Bool.false_ne_true)]
    unfold Dat.left
    by_cases h0 : n = 0
    · subst h0
      rw [live4_first _ rfl]
      dsimp only
      unfold Dat.kept
      rw [Pipeline.fill_of_clip_none 4 _ (fun a => rfl) d ((dats m 0 c).after 4 _), Window.fill_cut, after4]
    · rw [idle4_later _ (by dsimp only; omega)]
      dsimp only
      exact ih (by omega) h0

/-! ## The body at a point of the grid -/

/-- What the body is called with at point `t` (each buffer at what it then holds: the row block just fetched, the
    adjacency and the weight at their blocks, the first output's buffer fresh, the second output's as the pipeline
    keeps it), -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns: the first output's buffer at the product of the row block AS FETCHED — the array's rows, and
    whatever `d` the fetch left past the array's end — with the combined matrix. -/
def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t
    ∗ (∃ d, owns (c : Thread nD τ) (ms3 t) fullShare (k0_pay2 (win0_0.fill (grid0.coords t) d (iblk m c 0 t)) (combined m c)))
    ∗ (dats m 0 c).leaves 4 t)

theorem Phi_castSucc (c : Dev nD) (t : Fin cfg0.N) : (dats m 0 c).Φ t.castSucc = PhiS m c t.val := by
  dsimp only [dats]; simp only [Fin.coe_castSucc]

set_option maxHeartbeats 2000000 in
/-- The body at any point. At the first point the branch is taken: the scratch, at anything, ends at the combined matrix
    and the second output at the weight. At a later point the scratch is found at the combined matrix and left there, and
    the second output's buffer is handed back as found (at the last point, where it is written back, it holds the weight). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = iprop(iprop(owns (c : Thread nD τ) scM fullShare (combined m c)) ∗ (∃ r, prngReg c r)) from rfl,
    Phi_castSucc]
  rw [show (dats m 0 c).leaves 0 t = iprop(∃ d, owns (c : Thread nD τ) (ms0 t) fullShare
      (win0_0.fill (grid0.coords t) d (win0_0.cut (grid0.coords t) ((dats m 0 c).after 0 t)))) from rfl,
    show (dats m 0 c).leaves 1 t = owns (c : Thread nD τ) (ms1 t) fullShare ((dats m 0 c).after 1 t) from rfl,
    show (dats m 0 c).leaves 2 t = owns (c : Thread nD τ) (ms2 t) fullShare ((dats m 0 c).after 2 t) from rfl,
    after0, after1, after2]
  have hrows : win0_0.cut (grid0.coords t) (rowsIn m c t) = iblk m c 0 t := win0_0.cut_fill _ _ _
  rw [hrows]
  by_cases ht : t.val = 0
  · -- the first point
    rw [show (dats m 0 c).leaves 4 t = owns (c : Thread nD τ) (ms4 t) fullShare ((dats m 0 c).after 4 t) from by
      unfold Dat.leaves; rw [live4_first t ht], after4]
    rw [show PhiS m c t.val = Pipeline.ΦA spec0 c from by rw [ht]; rfl, PhiA_eq]
    simp only [before4_first m c t ht]
    iintro ⟨⟨HS, Hg⟩, Ho, ⟨%d0, H0⟩, ⟨%d1, H1⟩, ⟨%d2, H2⟩, H3, H4⟩
    iapply (body_first (F := F) c (grid0.coords t) ((first_iff t).mpr ht) _ _ _ _ _ _ _ _ _ _ _ _
      (win0_0.fill (grid0.coords t) d0 (iblk m c 0 t)) (iblk m c 1 t) (iblk m c 2 t) Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    rw [iblk1_const, iblk2_const]
    isplitl [HS Hg]
    · isplitl [HS]
      · iexact HS
      · iexact Hg
    isplitl [Ho]; · iexact Ho
    isplitl [H0]; · iexists d0; iexact H0
    isplitl [H1]; · iexact H1
    isplitl [H2]; · iexact H2
    isplitl [H3]; · iexists d0; iexact H3
    · iexact H4
  · -- a later point
    have hN : t.val < 5 := lt_of_lt_of_eq t.isLt N_0
    rw [show PhiS m c t.val = iprop(iprop(owns (c : Thread nD τ) scM fullShare (combined m c)) ∗ (∃ r, prngReg c r)) from by
      obtain ⟨n, hn⟩ := t; cases n with
      | zero => exact absurd rfl ht
      | succ n => rfl]
    simp only [before4_later m c t ht]
    by_cases h4 : t.val = 4
    · rw [show (dats m 0 c).leaves 4 t = owns (c : Thread nD τ) (ms4 t) fullShare ((dats m 0 c).after 4 t) from by
        unfold Dat.leaves; rw [idle4_later t ht, flush4_last t h4], after4]
      iintro ⟨⟨HS, Hg⟩, Ho, ⟨%d0, H0⟩, ⟨%d1, H1⟩, ⟨%d2, H2⟩, H3, ⟨%d4, H4⟩⟩
      iapply (body_later (F := F) c (grid0.coords t) (fun h => ht ((first_iff t).mp h)) _ _ _ _ _ _ _ _ _ _ _ _
        (win0_0.fill (grid0.coords t) d0 (iblk m c 0 t)) (iblk m c 1 t) (iblk m c 2 t) (weightBlock m c) (combined m c) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hg]
      · isplitl [HS]
        · iexact HS
        · iexact Hg
      isplitl [Ho]; · iexact Ho
      isplitl [H0]; · iexists d0; iexact H0
      isplitl [H1]; · iexact H1
      isplitl [H2]; · iexact H2
      isplitl [H3]; · iexists d0; iexact H3
      · iexact H4
    · rw [(dats m 0 c).leaves_idle 4 t (idle4_later t ht) (noflush4 t h4)]
      simp only [before4_later m c t ht]
      iintro ⟨⟨HS, Hg⟩, Ho, ⟨%d0, H0⟩, ⟨%d1, H1⟩, ⟨%d2, H2⟩, H3, ⟨%d4, H4⟩⟩
      iapply (body_later (F := F) c (grid0.coords t) (fun h => ht ((first_iff t).mp h)) _ _ _ _ _ _ _ _ _ _ _ _
        (win0_0.fill (grid0.coords t) d0 (iblk m c 0 t)) (iblk m c 1 t) (iblk m c 2 t) (weightBlock m c) (combined m c) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hg]
      · isplitl [HS]
        · iexact HS
        · iexact Hg
      isplitl [Ho]; · iexact Ho
      isplitl [H0]; · iexists d0; iexact H0
      isplitl [H1]; · iexact H1
      isplitl [H2]; · iexact H2
      isplitl [H3]; · iexists d0; iexact H3
      · iexists d4; iexact H4

/-- What the launch hands the region (the class's invariant) is the invariant before the first point. -/
theorem hin (c : Dev nD) : Pipeline.ΦA spec0 c ⊢ (dats m 0 c).Φ 0 := by
  rw [show (dats m 0 c).Φ 0 = Pipeline.ΦA spec0 c from rfl]

/-- After the last point the invariant gives the class's back: what the scratch holds is forgotten. -/
theorem hout (c : Dev nD) : (dats m 0 c).Φ (Fin.last cfg0.N) ⊢ Pipeline.ΦA spec0 c := by
  rw [show (dats m 0 c).Φ (Fin.last cfg0.N) = iprop(iprop(owns (c : Thread nD τ) scM fullShare (combined m c)) ∗ (∃ r, prngReg c r)) from rfl,
    PhiA_eq]
  iintro ⟨HS, Hg⟩
  isplitl [HS]
  · iexists _; iexact HS
  iexact Hg

end Cert.Kernel.Body

end
-- ==== Proof.KernelFrame.lean ====
/-
  The frame of the kernel as printed: every weakly fair execution of @main terminates, nothing faulting, and the three
  argument arrays end as they began.

  At the word-level instance nothing is stated of what the first output holds: the last row block overhangs the arrays,
  the fetch leaves unnamed words in the buffer's rows past the array's end, and the matrix unit's product of the whole
  buffer is a function of those words too. The frame does not read that output, so its window is forgotten: its buffer
  is handed to the body at any contents and taken back at any contents. The scratch and the second output are still
  named point by point, since the body reads the one and the pipeline keeps the other across points.
-/
import proofs.«101016_g69372311765224_cont_9to1_m_644_20_alg».proof.Proof.KernelData

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows whose contents the frame does not name: the first output's. -/
def forgets : Fin cfg0.W → Bool := fun w => match w with
  | ⟨0, _⟩ => false
  | ⟨1, _⟩ => false
  | ⟨2, _⟩ => false
  | ⟨3, _⟩ => true
  | ⟨4, _⟩ => false

/-- The library's body obligation with the first output forgotten, at every point. -/
theorem body_obligation (c : Dev nD) :
    BodyObligationLoose (dats (F := F) m 0 c) (defs₀ (F := F)) Variants.none () Set.univ forgets := fun t => by
  rw [bigSep_W0, bigSep_W0]
  refine (sep_mono .rfl (sep_mono .rfl (sep_mono .rfl (sep_mono .rfl (sep_mono .rfl (sep_mono ?_ .rfl)))))).trans
    ((sound_body m c t).trans (wp_mono _ _ _ fun _ => sep_mono .rfl (sep_mono .rfl (sep_mono .rfl (sep_mono .rfl
      (sep_mono .rfl (sep_mono ?_ .rfl)))))))
  · show iprop(∃ X, owns (c : Thread nD τ) (ms3 t) fullShare X) ⊢ _
    iintro ⟨%X, H⟩; iexists X; rw [before3]; iexact H
  · show _ ⊢ iprop(∃ X, owns (c : Thread nD τ) (ms3 t) fullShare X)
    iintro ⟨%d, H⟩; iexists _; iexact H

/-- The line after the region writes the transposed result's buffer only. -/
theorem tail_writes : ∀ ops ∈ ([hostOps1] : List (List (HloOp τ sig (Elt F)))), ∀ op ∈ ops, ∀ b : Ref sig .tc,
    Proc.devRef .tc b ∈ op.writes → b ∈ ({main_v1} : Finset (Ref sig .tc)) := by
  intro ops hops op hop b hb
  simp only [List.mem_cons, List.mem_nil_iff, or_false] at hops
  subst hops
  simp only [hostOps1, List.mem_cons, List.mem_nil_iff, or_false] at hop
  subst hop
  rw [StableHlo.unary_writes, Finset.mem_singleton] at hb
  exact Finset.mem_singleton.mpr (Proc.devRef_injective _ hb)

set_option backward.isDefEq.respectTransparency.types false in
/-- At the compiled mesh, for any values, from any memory with zero counters: every weakly fair execution of @main
    terminates, and in every final state each array of the pipeline holds contents the write-backs may have left (an
    input: its entry contents) and every other unscoped buffer but the transposed result's what it held. -/
theorem run_main : θ_run defs (onTc (τ := τ) (main (F := F))) (s₀ m ρ)
    (Pipeline.RDat.FramePostR (cfgs 0) (fun c => (dats m 0 c).toRForget forgets) {main_v1} (fun c b => V0 m c (Proc.devRef .tc b))) :=
  Pipeline.RDat.θ_run_frame_around_T_track cfgs (0 : Fin 1) launch0 defs₀ Variants.none (fun c => (dats m 0 c).toRForget forgets)
    {main_v1} m ρ main
    (hbody := fun c => (body_obligation m c).toRForget)
    (hshare := fun c => ((dats m 0 c).toRForget forgets).share_full fun _ => rfl)
    (howed := fun _ _ => rfl) (V₀ := V0 m) (opss := [hostOps1]) (hsub := sfx_sub) (hfresh := sfx_fresh) (hkeep := sfx_keeps)
    (hT := tail_writes) (hmain := hmain m Variants.none) (hA := A_eq m) (hin := hin m) (hout := hout m)

/-- The frame: an input array of the pipeline is never written, so it ends at its entry contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => by
    have h0 := (h c).1 0
    have h1 := (h c).1 1
    have h2 := (h c).1 2
    rw [Pipeline.RDat.ArrAt_in _ 0 rfl] at h0
    rw [Pipeline.RDat.ArrAt_in _ 1 rfl] at h1
    rw [Pipeline.RDat.ArrAt_in _ 2 rfl] at h2
    exact ⟨h0.trans ((A_eq m c 0).trans (V_main_arg0 m c)), h1.trans ((A_eq m c 1).trans (V_main_arg1 m c)),
      h2.trans ((A_eq m c 2).trans (V_main_arg2 m c))⟩) (run_main m ρ)

end Cert.Kernel.Body

end
-- ==== Proof.KernelIdealStep.lean ====
/-
  The kernel body of the idealized kernel, run once in each of its two control cases.

  The body is called at each of the five grid points with six whole VMEM memrefs: the row block of the node features
  (24576 × 128), the adjacency and the weight (128 × 128 each), the row block of the result (24576 × 128), the copy of
  the weight it returns (128 × 128) and a scratch (128 × 128). At the first point it copies the weight into the second
  output and stores the first product — weight times the transposed adjacency — into the scratch; at every point it
  stores the product of the row block with the scratch into the first output. Both runs are stated for any contents of
  the buffers, so that they apply whatever the fetch left past the array's end in the last, overhanging row block.
-/
import proofs.«101016_g69372311765224_cont_9to1_m_644_20_alg».proof.Proof.Gen.KernelIdeal.Frame
import proofs.«101016_g69372311765224_cont_9to1_m_644_20_alg».proof.Proof.Gen.KernelIdeal.Skeleton
import Idealize.ShloMosaic.Lib.Pipeline.Value
import Idealize.ShloMosaic.Lib.Pipeline.Kit
import Idealize.ShloMosaic.Lib.Pipeline.FrameBody
import Idealize.ShloMosaic.Lib.Pipeline.FrameSuffix
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The offsets of every access of the body, all zero. -/
theorem zero_offsets : (![0, 0] : Fin 2 → Nat) = fun _ => 0 := funext fun a => by fin_cases a <;> rfl

/-- One store through the whole-shape rectangle at zero offsets leaves its payload, read back through the view. -/
theorem read_one_store {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e) :
    v.read (Elt F) (v.writes (Elt F) f [⟨Rect.unit off S.size inb, w⟩]) = w := by
  rw [View.read_writes_eq_canon _ _ _ (fun y => ⟨_, List.mem_singleton_self _, View.mem_set_unit_zero h inb y⟩),
    View.canon_unit_zero h]

set_option maxHeartbeats 1000000 in
/-- THE BODY AT THE FIRST POINT (the branch taken). On whole memrefs — the three inputs' at contents `x0`, `x1`, `x2`, the two
    outputs' and the scratch at anything — the body copies the weight block `x2` into the second output, stores the product
    `k0_pay1 x2 x1` (the weight times the transposed adjacency) into the scratch, and stores the product of the row block `x0`
    with that scratch into the first output; the inputs are left as they were. -/
theorem body_first (c : Dev nD) (i : grid0.Coords) (hc : k0_cond1 i = 1#1)
    (arg1 : Memref sig .tc .vmem S24576x128 .f32) (harg1 : arg1.IsWhole) (arg2 : Memref sig .tc .vmem S128x128 .f32) (harg2 : arg2.IsWhole)
    (arg3 : Memref sig .tc .vmem S128x128 .f32) (harg3 : arg3.IsWhole) (arg4 : Memref sig .tc .vmem S24576x128 .f32) (harg4 : arg4.IsWhole)
    (arg5 : Memref sig .tc .vmem S128x128 .f32) (harg5 : arg5.IsWhole) (arg6 : Memref sig .tc .vmem S128x128 .f32) (harg6 : arg6.IsWhole)
    (x0 : Vec F S24576x128 .f32) (x1 x2 : Vec F S128x128 .f32) (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k0_pay2 x0 (k0_pay1 x2 x1)) ∗ owns (c : Thread nD τ) arg5 fullShare x2
            ∗ owns (c : Thread nD τ) arg6 fullShare (k0_pay1 x2 x1)) -∗ K ⟨⟩))
      ⊢ wp frame (wpE (defs₀ (F := F)) Variants.none c none) E (cc0__gcn_kernel i arg1 harg1 arg2 harg2 arg3 harg3 arg4 harg4 arg5 harg5 arg6 harg6) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%d3, %f3, %hf3, H3⟩, ⟨%d4, %f4, %hf4, H4⟩, ⟨%d5, %f5, %hf5, H5⟩, Hk⟩
  obtain rfl := harg1.eq_unread hf0; obtain rfl := harg2.eq_unread hf1; obtain rfl := harg3.eq_unread hf2
  sl_exec (disch := exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    refine (read_one_store _ _ zero_offsets _ _).trans ?_
    sl_unfold_words
    simp only [View.readAt_eq_ld, harg1.read_unread, harg2.read_unread, harg3.read_unread,
      View.ld_unit_zero (S := S24576x128) zero_offsets, View.ld_unit_zero (S := S128x128) zero_offsets]
    exact congrArg (k0_pay2 x0) (View.readCov_unit_zero (S := S128x128) _ zero_offsets _ _)
  isplitl [H4]
  · iexists _; isplitr
    swap; · iexact H4
    ipureintro
    refine (read_one_store _ _ zero_offsets _ _).trans ?_
    simp only [View.readAt_eq_ld, harg3.read_unread, View.ld_unit_zero (S := S128x128) zero_offsets]
  · iexists _; isplitr
    swap; · iexact H5
    ipureintro
    sl_unfold_words
    refine (read_one_store _ _ zero_offsets _ _).trans ?_
    simp only [View.readAt_eq_ld, harg3.read_unread, harg2.read_unread, View.ld_unit_zero (S := S128x128) zero_offsets]

set_option maxHeartbeats 1000000 in
/-- THE BODY AT EVERY LATER POINT (the branch not taken). The second output is not touched (left at whatever it held, `x4`),
    the scratch is read and left at its contents `s`, and the first output is stored the product of the row block `x0`
    with the scratch. -/
theorem body_later (c : Dev nD) (i : grid0.Coords) (hc : ¬k0_cond1 i = 1#1)
    (arg1 : Memref sig .tc .vmem S24576x128 .f32) (harg1 : arg1.IsWhole) (arg2 : Memref sig .tc .vmem S128x128 .f32) (harg2 : arg2.IsWhole)
    (arg3 : Memref sig .tc .vmem S128x128 .f32) (harg3 : arg3.IsWhole) (arg4 : Memref sig .tc .vmem S24576x128 .f32) (harg4 : arg4.IsWhole)
    (arg5 : Memref sig .tc .vmem S128x128 .f32) (harg5 : arg5.IsWhole) (arg6 : Memref sig .tc .vmem S128x128 .f32) (harg6 : arg6.IsWhole)
    (x0 : Vec F S24576x128 .f32) (x1 x2 x4 s : Vec F S128x128 .f32) (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare x4 ∗ owns (c : Thread nD τ) arg6 fullShare s
        ∗ (iprop(owns (c : Thread nD τ) arg1 fullShare x0 ∗ owns (c : Thread nD τ) arg2 fullShare x1 ∗ owns (c : Thread nD τ) arg3 fullShare x2
            ∗ owns (c : Thread nD τ) arg4 fullShare (k0_pay2 x0 s) ∗ owns (c : Thread nD τ) arg5 fullShare x4
            ∗ owns (c : Thread nD τ) arg6 fullShare s) -∗ K ⟨⟩))
      ⊢ wp frame (wpE (defs₀ (F := F)) Variants.none c none) E (cc0__gcn_kernel i arg1 harg1 arg2 harg2 arg3 harg3 arg4 harg4 arg5 harg5 arg6 harg6) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%d3, %f3, %hf3, H3⟩, ⟨%f4, %hf4, H4⟩, ⟨%f5, %hf5, H5⟩, Hk⟩
  obtain rfl := harg1.eq_unread hf0; obtain rfl := harg6.eq_unread hf5
  sl_exec (disch := exact hc)
  sl_step
  iapply Hk
  isplitl [H0]
  · iexists _; isplitr; · ipureintro; exact harg1.read_unread _
    iexact H0
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    refine (read_one_store _ _ zero_offsets _ _).trans ?_
    sl_unfold_words
    simp only [View.readAt_eq_ld, harg1.read_unread, harg6.read_unread,
      View.ld_unit_zero (S := S24576x128) zero_offsets, View.ld_unit_zero (S := S128x128) zero_offsets]
  isplitl [H4]
  · iexists _; isplitr; · ipureintro; exact hf4
    iexact H4
  · iexists _; isplitr; · ipureintro; exact harg6.read_unread _
    iexact H5

end Cert.KernelIdeal.Body

end
-- ==== Proof.KernelIdealData.lean ====
/-
  The proof data of the idealized kernel's one pipeline, and its body at a point of the grid.

  Five grid points; the row blocks of the node features and of the result move with the point, the last of them
  overhanging the arrays (100000 rows in blocks of 24576), so their transfers are cut at the array's end and nothing is
  said of the buffer's rows past it. The adjacency, the weight and the returned copy of the weight are one block each;
  the copy is stored at the first point and written back after the last. A scratch carries the combined matrix
  (weight times transposed adjacency) from the first point to every later one: the region invariant names its contents.
-/
import proofs.«101016_g69372311765224_cont_9to1_m_644_20_alg».proof.Proof.KernelIdealStep

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch, the idle points, the staging memrefs -/

/-- The body's branch is taken at the first grid point only — decided over the grid. -/
theorem first_iff : ∀ t : Fin cfg0.N, k0_cond1 (grid0.coords t) = 1#1 ↔ t.val = 0 :=
  (by decide +kernel : ∀ t : Fin grid0.N, k0_cond1 (grid0.coords t) = 1#1 ↔ t.val = 0)

/-- The second output's window is live at the first point and idle at every later one. -/
theorem live4_first : ∀ t : Fin cfg0.N, t.val = 0 → cfg0.idle 4 (grid0.coords t) = false := by decide +kernel
theorem idle4_later : ∀ t : Fin cfg0.N, t.val ≠ 0 → cfg0.idle 4 (grid0.coords t) = true := by decide +kernel
/-- It is written back at the last point only. -/
theorem noflush4 : ∀ t : Fin cfg0.N, t.val ≠ 4 → (cfg0.win 4).flush t = false := by decide +kernel
theorem flush4_last : ∀ t : Fin cfg0.N, t.val = 4 → (cfg0.win 4).flush t = true := by decide +kernel

/-- Each window's current staging memref at point `t`, as the pipeline passes it to the body, and its wholeness. -/
abbrev ms0 (t : Fin cfg0.N) : Memref sig .tc .vmem S24576x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S24576x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x128 .f32 := win0_4.stage (cfg0.slots t 4)
abbrev hs4 (t : Fin cfg0.N) : (ms4 t).IsWhole := hstage0_4 ((cfg0.slots t 4).cast nbuf0_4)
/-- The scratch operand: a whole scoped buffer of the kernel's own. -/
abbrev scM : Memref sig .tc .vmem S128x128 .f32 := Memref.whole cc0_scratch0

/-- The class's region invariant with the scratch as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## What the buffers hold -/

/-- The row block of the node features at point `t` as a full staging block: the rows inside the array are the array's,
    the rows past its end (the last block overhangs) are filled with a zero word that nothing reads. -/
def rowsIn (c : Dev nD) (t : Fin cfg0.N) : Vec F S24576x128 .f32 :=
  win0_0.fill (grid0.coords t) (fun _ => Scalar.ofBits .f32 0#32) (iblk m c 0 t)

/-- The adjacency and the weight as the first point's blocks (each is one block, the whole array). -/
def adjBlock (c : Dev nD) : Vec F S128x128 .f32 := iblk m c 1 t0_0
def weightBlock (c : Dev nD) : Vec F S128x128 .f32 := iblk m c 2 t0_0

/-- The combined matrix the first point stores in the scratch and every point reads: the body's first product of the
    weight and the adjacency. -/
def combined (c : Dev nD) : Vec F S128x128 .f32 := k0_pay1 (weightBlock m c) (adjBlock m c)

/-- The region invariant before position `n`: before the first point the class's (the scratch at anything); afterwards
    the scratch at the combined matrix, and the generator register at some state. -/
def PhiS (c : Dev nD) : ℕ → sProp 𝕄
  | 0 => Pipeline.ΦA spec0 c
  | _ + 1 => iprop(iprop(owns (c : Thread nD τ) scM fullShare (combined m c)) ∗ (∃ r, prngReg c r))

/-- The proof data of the one pipeline on core `c`: the arrays as the region finds them; after the body at point `t`
    the inputs' buffers at their blocks, the first output's at the product of the row block with the combined matrix,
    the second output's at the weight; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => rowsIn m c t
    | ⟨1, _⟩ => iblk m c 1 t
    | ⟨2, _⟩ => iblk m c 2 t
    | ⟨3, _⟩ => k0_pay2 (rowsIn m c t) (combined m c)
    | ⟨4, _⟩ => weightBlock m c
  Φ t := PhiS m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = rowsIn m c t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = k0_pay2 (rowsIn m c t) (combined m c) := by dsimp only [dats]
theorem after4 (c : Dev nD) (t : Fin cfg0.N) : (dats m 0 c).after 4 t = weightBlock m c := by dsimp only [dats]

/-! ## What the body finds -/

/-- The row block's buffer was just fetched: the block on the rows inside the array, `d` past its end. -/
theorem before0 (c : Dev nD) (t : Fin cfg0.N) (d) :
    (dats m 0 c).before 0 t d = win0_0.fill (grid0.coords t) d (iblk m c 0 t) := by
  rw [(dats m 0 c).before_fetched 0 t (fetch0_0 t) d]
  unfold Dat.fetched Dat.blockOf iblk; rw [A_eq]; try rfl
/-- The adjacency's and the weight's buffers hold their blocks at every point. -/
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
/-- The first output's buffer is fresh at every point (it was written back at the point before). -/
theorem before3 (c : Dev nD) (t : Fin cfg0.N) (d) : (dats m 0 c).before 3 t d = d :=
  (dats m 0 c).before_out_reset 3 rfl t (by
    by_cases h : t.val = 0
    · exact .inl h
    · exact .inr ⟨h, flush0_3 _⟩) d
/-- The second output's buffer is fresh at the first point. -/
theorem before4_first (c : Dev nD) (t : Fin cfg0.N) (ht : t.val = 0) (d) : (dats m 0 c).before 4 t d = d :=
  (dats m 0 c).before_out_reset 4 rfl t (.inl ht) d

/-- The adjacency's and the weight's blocks are the same at every point (their block index does not move). -/
theorem iblk1_const (c : Dev nD) (t : Fin cfg0.N) : iblk m c 1 t = adjBlock m c := by
  rcases fin_N0 t with rfl | rfl | rfl | rfl | rfl <;> rfl
theorem iblk2_const (c : Dev nD) (t : Fin cfg0.N) : iblk m c 2 t = weightBlock m c := by
  rcases fin_N0 t with rfl | rfl | rfl | rfl | rfl <;> rfl

/-- The second output's buffer at every later point holds the weight: the first point left it there, no point in between
    stores into it or writes it back, and its window is not cut. -/
theorem before4_later (c : Dev nD) (t : Fin cfg0.N) (ht : t.val ≠ 0) (d) : (dats m 0 c).before 4 t d = weightBlock m c := by
  obtain ⟨n, hn⟩ := t
  induction n with
  | zero => exact absurd rfl ht
  | succ n ih =>
    have hN : n + 1 < 5 := lt_of_lt_of_eq hn N_0
    rw [(dats m 0 c).before_of_pos 4 ⟨n + 1, hn⟩ ht ((cfg0.win 4).fetch_out rfl _) d]
    rw [if_neg (by rw [noflush4 _ (by dsimp only; omega)]; exact Bool.false_ne_true)]
    unfold Dat.left
    by_cases h0 : n = 0
    · subst h0
      rw [live4_first _ rfl]
      dsimp only
      unfold Dat.kept
      rw [Pipeline.fill_of_clip_none 4 _ (fun a => rfl) d ((dats m 0 c).after 4 _), Window.fill_cut, after4]
    · rw [idle4_later _ (by dsimp only; omega)]
      dsimp only
      exact ih (by omega) h0

/-! ## The body at a point of the grid -/

/-- What the body is called with at point `t` (each buffer at what it then holds: the row block just fetched, the
    adjacency and the weight at their blocks, the first output's buffer fresh, the second output's as the pipeline
    keeps it), -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns: the first output's buffer at the product of the row block AS FETCHED — the array's rows, and
    whatever `d` the fetch left past the array's end — with the combined matrix. -/
def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t
    ∗ (∃ d, owns (c : Thread nD τ) (ms3 t) fullShare (k0_pay2 (win0_0.fill (grid0.coords t) d (iblk m c 0 t)) (combined m c)))
    ∗ (dats m 0 c).leaves 4 t)

theorem Phi_castSucc (c : Dev nD) (t : Fin cfg0.N) : (dats m 0 c).Φ t.castSucc = PhiS m c t.val := by
  dsimp only [dats]; simp only [Fin.coe_castSucc]

set_option maxHeartbeats 2000000 in
/-- The body at any point. At the first point the branch is taken: the scratch, at anything, ends at the combined matrix
    and the second output at the weight. At a later point the scratch is found at the combined matrix and left there, and
    the second output's buffer is handed back as found (at the last point, where it is written back, it holds the weight). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = iprop(iprop(owns (c : Thread nD τ) scM fullShare (combined m c)) ∗ (∃ r, prngReg c r)) from rfl,
    Phi_castSucc]
  rw [show (dats m 0 c).leaves 0 t = iprop(∃ d, owns (c : Thread nD τ) (ms0 t) fullShare
      (win0_0.fill (grid0.coords t) d (win0_0.cut (grid0.coords t) ((dats m 0 c).after 0 t)))) from rfl,
    show (dats m 0 c).leaves 1 t = owns (c : Thread nD τ) (ms1 t) fullShare ((dats m 0 c).after 1 t) from rfl,
    show (dats m 0 c).leaves 2 t = owns (c : Thread nD τ) (ms2 t) fullShare ((dats m 0 c).after 2 t) from rfl,
    after0, after1, after2]
  have hrows : win0_0.cut (grid0.coords t) (rowsIn m c t) = iblk m c 0 t := win0_0.cut_fill _ _ _
  rw [hrows]
  by_cases ht : t.val = 0
  · -- the first point
    rw [show (dats m 0 c).leaves 4 t = owns (c : Thread nD τ) (ms4 t) fullShare ((dats m 0 c).after 4 t) from by
      unfold Dat.leaves; rw [live4_first t ht], after4]
    rw [show PhiS m c t.val = Pipeline.ΦA spec0 c from by rw [ht]; rfl, PhiA_eq]
    simp only [before4_first m c t ht]
    iintro ⟨⟨HS, Hg⟩, Ho, ⟨%d0, H0⟩, ⟨%d1, H1⟩, ⟨%d2, H2⟩, H3, H4⟩
    iapply (body_first (F := F) c (grid0.coords t) ((first_iff t).mpr ht) _ _ _ _ _ _ _ _ _ _ _ _
      (win0_0.fill (grid0.coords t) d0 (iblk m c 0 t)) (iblk m c 1 t) (iblk m c 2 t) Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    rw [iblk1_const, iblk2_const]
    isplitl [HS Hg]
    · isplitl [HS]
      · iexact HS
      · iexact Hg
    isplitl [Ho]; · iexact Ho
    isplitl [H0]; · iexists d0; iexact H0
    isplitl [H1]; · iexact H1
    isplitl [H2]; · iexact H2
    isplitl [H3]; · iexists d0; iexact H3
    · iexact H4
  · -- a later point
    have hN : t.val < 5 := lt_of_lt_of_eq t.isLt N_0
    rw [show PhiS m c t.val = iprop(iprop(owns (c : Thread nD τ) scM fullShare (combined m c)) ∗ (∃ r, prngReg c r)) from by
      obtain ⟨n, hn⟩ := t; cases n with
      | zero => exact absurd rfl ht
      | succ n => rfl]
    simp only [before4_later m c t ht]
    by_cases h4 : t.val = 4
    · rw [show (dats m 0 c).leaves 4 t = owns (c : Thread nD τ) (ms4 t) fullShare ((dats m 0 c).after 4 t) from by
        unfold Dat.leaves; rw [idle4_later t ht, flush4_last t h4], after4]
      iintro ⟨⟨HS, Hg⟩, Ho, ⟨%d0, H0⟩, ⟨%d1, H1⟩, ⟨%d2, H2⟩, H3, ⟨%d4, H4⟩⟩
      iapply (body_later (F := F) c (grid0.coords t) (fun h => ht ((first_iff t).mp h)) _ _ _ _ _ _ _ _ _ _ _ _
        (win0_0.fill (grid0.coords t) d0 (iblk m c 0 t)) (iblk m c 1 t) (iblk m c 2 t) (weightBlock m c) (combined m c) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hg]
      · isplitl [HS]
        · iexact HS
        · iexact Hg
      isplitl [Ho]; · iexact Ho
      isplitl [H0]; · iexists d0; iexact H0
      isplitl [H1]; · iexact H1
      isplitl [H2]; · iexact H2
      isplitl [H3]; · iexists d0; iexact H3
      · iexact H4
    · rw [(dats m 0 c).leaves_idle 4 t (idle4_later t ht) (noflush4 t h4)]
      simp only [before4_later m c t ht]
      iintro ⟨⟨HS, Hg⟩, Ho, ⟨%d0, H0⟩, ⟨%d1, H1⟩, ⟨%d2, H2⟩, H3, ⟨%d4, H4⟩⟩
      iapply (body_later (F := F) c (grid0.coords t) (fun h => ht ((first_iff t).mp h)) _ _ _ _ _ _ _ _ _ _ _ _
        (win0_0.fill (grid0.coords t) d0 (iblk m c 0 t)) (iblk m c 1 t) (iblk m c 2 t) (weightBlock m c) (combined m c) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hg]
      · isplitl [HS]
        · iexact HS
        · iexact Hg
      isplitl [Ho]; · iexact Ho
      isplitl [H0]; · iexists d0; iexact H0
      isplitl [H1]; · iexact H1
      isplitl [H2]; · iexact H2
      isplitl [H3]; · iexists d0; iexact H3
      · iexists d4; iexact H4

/-- What the launch hands the region (the class's invariant) is the invariant before the first point. -/
theorem hin (c : Dev nD) : Pipeline.ΦA spec0 c ⊢ (dats m 0 c).Φ 0 := by
  rw [show (dats m 0 c).Φ 0 = Pipeline.ΦA spec0 c from rfl]

/-- After the last point the invariant gives the class's back: what the scratch holds is forgotten. -/
theorem hout (c : Dev nD) : (dats m 0 c).Φ (Fin.last cfg0.N) ⊢ Pipeline.ΦA spec0 c := by
  rw [show (dats m 0 c).Φ (Fin.last cfg0.N) = iprop(iprop(owns (c : Thread nD τ) scM fullShare (combined m c)) ∗ (∃ r, prngReg c r)) from rfl,
    PhiA_eq]
  iintro ⟨HS, Hg⟩
  isplitl [HS]
  · iexists _; iexact HS
  iexact Hg

end Cert.KernelIdeal.Body

end
-- ==== Proof.KernelIdealRun.lean ====
/-
  The idealized kernel's run: every weakly fair execution of @main terminates, nothing faulting, with each array of the
  pipeline at what the write-backs leave and the transposed result as the line after the region computes it.

  One property of the instance's matrix product is needed, because the last row block overhangs the arrays: the fetch
  leaves unnamed words in the buffer's rows past the array's end, the body multiplies the whole buffer, and only the rows
  inside the array are written back. Those rows of the product must not depend on the unnamed rows of the operand — row
  locality, stated here as a hypothesis on the instance and proved for the extended reals where it is used.
-/
import proofs.«101016_g69372311765224_cont_9to1_m_644_20_alg».proof.Proof.KernelIdealData

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- ROW LOCALITY of the body's second product, through the windows' cuts: the rows of the product inside the part of the
    block that the write-back moves depend only on the rows of the left operand inside the part the fetch fills. -/
def RowLocal (F : FTy → Type) [FloatOps F] : Prop :=
  ∀ (i : grid0.Coords) (d d' : S24576x128.Idx → Elt F .f32) (g : (win0_0.xblock i).Idx → Elt F .f32) (s : Vec F S128x128 .f32),
    win0_3.cut i (k0_pay2 (win0_0.fill i d g) s) = win0_3.cut i (k0_pay2 (win0_0.fill i d' g) s)

/-- Under row locality the product of the row block as fetched is, on the rows the write-back moves, the product of the
    row block filled out with zeros: what the proof data states of the first output. -/
theorem leaves3_of_rowLocal (hloc : RowLocal F) (c : Dev nD) (t : Fin cfg0.N) :
    iprop(∃ d, owns (c : Thread nD τ) (ms3 t) fullShare (k0_pay2 (win0_0.fill (grid0.coords t) d (iblk m c 0 t)) (combined m c)))
      ⊢ ((dats m 0 c).leaves 3 t : sProp 𝕄) := by
  rw [show (dats m 0 c).leaves 3 t = iprop(∃ d, owns (c : Thread nD τ) (ms3 t) fullShare
      (win0_3.fill (grid0.coords t) d (win0_3.cut (grid0.coords t) ((dats m 0 c).after 3 t)))) from rfl, after3]
  unfold rowsIn
  iintro ⟨%d0, H⟩
  iexists (k0_pay2 (win0_0.fill (grid0.coords t) d0 (iblk m c 0 t)) (combined m c))
  rw [win0_3.fill_congr_cut _ (hloc _ _ _ _ _)]
  iexact H

/-- The library's body obligation, at every point. -/
theorem body_obligation (hloc : RowLocal F) (c : Dev nD) :
    BodyObligationLoose (dats (F := F) m 0 c) (defs₀ (F := F)) Variants.none () Set.univ := fun t => by
  rw [bigSep_W0, bigSep_W0]
  exact (sound_body m c t).trans (wp_mono _ _ _ fun _ => sep_mono .rfl (sep_mono .rfl (sep_mono .rfl (sep_mono .rfl
    (sep_mono .rfl (sep_mono (leaves3_of_rowLocal m hloc c t) .rfl))))))

set_option backward.isDefEq.respectTransparency.types false in
/-- At the compiled mesh, for any values, from any memory with zero counters: every weakly fair execution of @main
    terminates, and every final state has every array of the pipeline at what the proof data computes and every other
    unscoped buffer as the line after the region leaves it. -/
theorem run_main (hloc : RowLocal F) :
    θ_run defs (onTc (τ := τ) (main (F := F))) (s₀ m ρ)
      (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => body_obligation m hloc c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the run's post read at the argument arrays. -/
theorem frame (hloc : RowLocal F) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ hloc)

end Cert.KernelIdeal.Body

end
-- ==== Proof.KernelPayload.lean ====
/-
  The two products of the kernel's body, read at an index, and the transpose that follows it.

  The body holds two matrix products into zero accumulators. The first combines the two small
  matrices, contracting the second axis of both: (k, b) ↦ Σ_j w (k, j) · a (b, j), which is the
  specification's combined matrix. The second multiplies a block of rows of the node features by that
  combined matrix: (p, b) ↦ Σ_k x (p, k) · s (k, b). After the region the result is transposed:
  the entry (m, n) of the transpose is the entry (n, m) of the array.

  Row p of the second product reads only row p of its left operand. The blocks of rows fetched and
  the blocks of rows written back are cut alike at the array's end, so the rows written back never
  depend on what the staging buffer held beyond the rows fetched.
-/
import proofs.«101016_g69372311765224_cont_9to1_m_644_20_alg».proof.Proof.Gen.KernelIdeal.Skeleton
import proofs.«101016_g69372311765224_cont_9to1_m_644_20_alg».proof.Proof.Spec
import Idealize.ShloMosaic.PureOps.Ideal.Laws
import Idealize.ShloMosaic.Lib.ValueIdx
import Idealize.ShloMosaic.Lib.Pipeline.Value

noncomputable section

open scoped BigOperators

namespace Cert.KernelIdeal.Payload

open Cert.KernelIdeal Cert.KernelIdeal.Gen Idealize.ShloMosaic Idealize.ShloMosaic.ValueIdx

/-! ## The second product: rows of the node features times a 128 × 128 matrix -/

/-- The left operand's row coordinate is the result's. -/
theorem lhs2_0 (i : S24576x128.Idx) (q : dot_S24576x128_S128x128_S24576x128_1_0_0_1_n_n.contr.Idx) :
    (dot_S24576x128_S128x128_S24576x128_1_0_0_1_n_n.lhsIdx i q 0).val = (i 0).val := by
  unfold DotDims.lhsIdx
  rw [dif_neg (show ¬(0 : Fin S24576x128.rank) ∈ dot_S24576x128_S128x128_S24576x128_1_0_0_1_n_n.lhsBatch by decide),
    dif_pos (show (0 : Fin S24576x128.rank) ∈ dot_S24576x128_S128x128_S24576x128_1_0_0_1_n_n.lhsNonContracting by decide)]
  rfl

/-- The right operand's column coordinate is the result's. -/
theorem rhs2_1 (i : S24576x128.Idx) (q : dot_S24576x128_S128x128_S24576x128_1_0_0_1_n_n.contr.Idx) :
    (dot_S24576x128_S128x128_S24576x128_1_0_0_1_n_n.rhsIdx i q 1).val = (i 1).val := by
  unfold DotDims.rhsIdx
  rw [dif_neg (show ¬(1 : Fin S128x128.rank) ∈ dot_S24576x128_S128x128_S24576x128_1_0_0_1_n_n.rhsBatch by decide),
    dif_pos (show (1 : Fin S128x128.rank) ∈ dot_S24576x128_S128x128_S24576x128_1_0_0_1_n_n.rhsNonContracting by decide)]
  rfl

/-- The second product at (p, b): the sum over k of x (p, k) · s (k, b). -/
theorem pay2_apply (x : Vec Ideal S24576x128 .f32) (s : Vec Ideal S128x128 .f32) (p : Fin 24576) (b : Fin 128) :
    k0_pay2 (F := Ideal) x s (ix2 p b) = ∑ k : Fin 128, x (ix2 p k) * s (ix2 k b) := by
  unfold k0_pay2
  show FloatOps.matmul dot_S24576x128_S128x128_S24576x128_1_0_0_1_n_n none (x : FVec Ideal S24576x128 .f32)
      (s : FVec Ideal S128x128 .f32) (constant (F := Ideal) S24576x128 .f32 0x00000000#32) (ix2 p b) = _
  rw [Ideal.matmul_constant_zero_apply,
    ← Equiv.sum_comp (contrEquiv1 dot_S24576x128_S128x128_S24576x128_1_0_0_1_n_n 128 rfl rfl).symm]
  refine Finset.sum_congr rfl fun k _ => ?_
  have hk := contrEquiv1_symm_val dot_S24576x128_S128x128_S24576x128_1_0_0_1_n_n 128 rfl rfl k
  have el : dot_S24576x128_S128x128_S24576x128_1_0_0_1_n_n.lhsIdx (ix2 p b)
      ((contrEquiv1 dot_S24576x128_S128x128_S24576x128_1_0_0_1_n_n 128 rfl rfl).symm k) = ix2 p k :=
    funext fun a => Fin.ext (by
      match a with
      | ⟨0, _⟩ => exact lhs2_0 _ _
      | ⟨1, _⟩ => exact (dot_S24576x128_S128x128_S24576x128_1_0_0_1_n_n.lhsIdx_val_of_single rfl _ _).trans hk)
  have er : dot_S24576x128_S128x128_S24576x128_1_0_0_1_n_n.rhsIdx (ix2 p b)
      ((contrEquiv1 dot_S24576x128_S128x128_S24576x128_1_0_0_1_n_n 128 rfl rfl).symm k) = ix2 k b :=
    funext fun a => Fin.ext (by
      match a with
      | ⟨0, _⟩ => exact (dot_S24576x128_S128x128_S24576x128_1_0_0_1_n_n.rhsIdx_val_of_single rfl _ _).trans hk
      | ⟨1, _⟩ => exact rhs2_1 _ _)
  rw [el, er]

/-! ## The first product: the two small matrices combined -/

/-- The left operand's row coordinate is the result's row. -/
theorem lhs1_0 (i : S128x128.Idx) (q : dot_S128x128_S128x128_S128x128_1_1_0_0_n_n.contr.Idx) :
    (dot_S128x128_S128x128_S128x128_1_1_0_0_n_n.lhsIdx i q 0).val = (i 0).val := by
  unfold DotDims.lhsIdx
  rw [dif_neg (show ¬(0 : Fin S128x128.rank) ∈ dot_S128x128_S128x128_S128x128_1_1_0_0_n_n.lhsBatch by decide),
    dif_pos (show (0 : Fin S128x128.rank) ∈ dot_S128x128_S128x128_S128x128_1_1_0_0_n_n.lhsNonContracting by decide)]
  rfl

/-- The right operand's row coordinate is the result's column. -/
theorem rhs1_0 (i : S128x128.Idx) (q : dot_S128x128_S128x128_S128x128_1_1_0_0_n_n.contr.Idx) :
    (dot_S128x128_S128x128_S128x128_1_1_0_0_n_n.rhsIdx i q 0).val = (i 1).val := by
  unfold DotDims.rhsIdx
  rw [dif_neg (show ¬(0 : Fin S128x128.rank) ∈ dot_S128x128_S128x128_S128x128_1_1_0_0_n_n.rhsBatch by decide),
    dif_pos (show (0 : Fin S128x128.rank) ∈ dot_S128x128_S128x128_S128x128_1_1_0_0_n_n.rhsNonContracting by decide)]
  rfl

/-- The first product at (k, b): the sum over j of w (k, j) · a (b, j). -/
theorem pay1_apply (w a : Vec Ideal S128x128 .f32) (k b : Fin 128) :
    k0_pay1 (F := Ideal) w a (ix2 k b) = ∑ j : Fin 128, w (ix2 k j) * a (ix2 b j) := by
  unfold k0_pay1
  show shapeCast S128x128 (FloatOps.matmul dot_S128x128_S128x128_S128x128_1_1_0_0_n_n none (w : FVec Ideal S128x128 .f32)
      (a : FVec Ideal S128x128 .f32) (constant (F := Ideal) S128x128 .f32 0x00000000#32)) shapeCasts_S128x128_S128x128 (ix2 k b) = _
  rw [shapeCast_self, Ideal.matmul_constant_zero_apply,
    ← Equiv.sum_comp (contrEquiv1 dot_S128x128_S128x128_S128x128_1_1_0_0_n_n 128 rfl rfl).symm]
  refine Finset.sum_congr rfl fun j _ => ?_
  have hj := contrEquiv1_symm_val dot_S128x128_S128x128_S128x128_1_1_0_0_n_n 128 rfl rfl j
  have el : dot_S128x128_S128x128_S128x128_1_1_0_0_n_n.lhsIdx (ix2 k b)
      ((contrEquiv1 dot_S128x128_S128x128_S128x128_1_1_0_0_n_n 128 rfl rfl).symm j) = ix2 k j :=
    funext fun c => Fin.ext (by
      match c with
      | ⟨0, _⟩ => exact lhs1_0 _ _
      | ⟨1, _⟩ => exact (dot_S128x128_S128x128_S128x128_1_1_0_0_n_n.lhsIdx_val_of_single rfl _ _).trans hj)
  have er : dot_S128x128_S128x128_S128x128_1_1_0_0_n_n.rhsIdx (ix2 k b)
      ((contrEquiv1 dot_S128x128_S128x128_S128x128_1_1_0_0_n_n 128 rfl rfl).symm j) = ix2 b j :=
    funext fun c => Fin.ext (by
      match c with
      | ⟨0, _⟩ => exact rhs1_0 _ _
      | ⟨1, _⟩ => exact (dot_S128x128_S128x128_S128x128_1_1_0_0_n_n.rhsIdx_val_of_single rfl _ _).trans hj)
  rw [el, er]

/-- The first product is the specification's combined matrix W · Aᵀ. -/
theorem pay1_eq (w a : Vec Ideal S128x128 .f32) : k0_pay1 (F := Ideal) w a = Cert.GraphConv.combine w a := by
  funext i
  obtain ⟨k, b, rfl⟩ : ∃ (k b : Fin 128), i = ix2 k b := ⟨i 0, i 1, eq_ix2 i⟩
  rw [pay1_apply]
  rfl

/-! ## The transpose after the region -/

/-- The transposed array at (m, n) is the array at (n, m). -/
theorem transpose_read (y : Vec Ideal S100000x128 .f32) (i : S128x100000.Idx) :
    transpose S128x100000 [1, 0] y transposes_S100000x128_S128x100000_1_0 i
      = y (ix2 (i 1 : Fin 100000) (i 0 : Fin 128)) :=
  transpose_apply [1, 0] y transposes_S100000x128_S128x100000_1_0 i (ix2 (i 1 : Fin 100000) (i 0 : Fin 128))
    (fun b => match b with
      | ⟨0, _⟩ => rfl
      | ⟨1, _⟩ => rfl)

/-! ## Row locality through the cut windows -/

/-- The blocks of rows fetched and the blocks of rows written back are cut alike at the array's end. -/
theorem xsize_eq (i : grid0.Coords) (a : Fin 2) : win0_3.xsize i a = win0_0.xsize i a := rfl

/-- No block is cut along the columns: every block holds all 128 of them. -/
theorem xsize_col (i : grid0.Coords) : win0_0.xsize i (1 : Fin 2) = 128 := rfl

/-- At an entry the fetch moves, the filled block holds the fetched value whatever it held before. -/
theorem fill_eq_of_moved (i : grid0.Coords) (d d' : win0_0.block.Idx → EReal) (g : (win0_0.xblock i).Idx → EReal)
    (j : win0_0.block.Idx) (h : win0_0.moved i j = true) : win0_0.fill i d g j = win0_0.fill i d' g j := by
  unfold Pipeline.Window.fill
  rw [dif_pos h, dif_pos h]

/-- The rows of the second product that are written back depend only on the rows fetched: row p of
the product reads row p of the left operand alone, and a row inside the part written back is inside
the part fetched. -/
theorem rowLocal (i : grid0.Coords) (d d' : S24576x128.Idx → EReal) (g : (win0_0.xblock i).Idx → EReal)
    (s : Vec Ideal S128x128 .f32) :
    win0_3.cut i (k0_pay2 (F := Ideal) (win0_0.fill i d g) s) = win0_3.cut i (k0_pay2 (F := Ideal) (win0_0.fill i d' g) s) := by
  funext j
  have hp : (j 0).val < 24576 := Nat.lt_of_lt_of_le (j 0).isLt (win0_3.xsize_le i 0)
  have hb : (j 1).val < 128 := Nat.lt_of_lt_of_le (j 1).isLt (win0_3.xsize_le i 1)
  have hj : win0_3.xinj i j = ix2 (⟨(j 0).val, hp⟩ : Fin 24576) (⟨(j 1).val, hb⟩ : Fin 128) :=
    funext fun a => Fin.ext (by match a with | ⟨0, _⟩ => rfl | ⟨1, _⟩ => rfl)
  show k0_pay2 (F := Ideal) (win0_0.fill i d g) s (win0_3.xinj i j)
      = k0_pay2 (F := Ideal) (win0_0.fill i d' g) s (win0_3.xinj i j)
  rw [hj, pay2_apply, pay2_apply]
  refine Finset.sum_congr rfl fun k _ => ?_
  refine congrArg (· * _) (fill_eq_of_moved i d d' g _ ?_)
  refine (win0_0.moved_iff i _).mpr ?_
  show ∀ a : Fin 2, _
  intro a
  match a with
  | ⟨0, _⟩ => exact (xsize_eq i 0) ▸ (j 0).isLt
  | ⟨1, _⟩ => exact (xsize_col i).symm ▸ k.isLt

end Cert.KernelIdeal.Payload

end
-- ==== Proof.KernelIdealValue.lean ====
/-
  From the blocks the pipeline writes back to the two result arrays, and the transpose that follows.

  The region has five points. At point t the rows t · 24576 … of the node features are fetched (the last
  block holds only the 1696 rows left in the array), multiplied by the combined matrix W · Aᵀ, and the
  product's rows are written back to the same rows of the first result array; the two row blocks are cut
  alike at the array's end, and row p of the product reads row p of the fetched block alone, so what is
  written back is, row by row, the rows of X times the combined matrix. The five blocks cover the 100000
  rows, so the first result array ends holding X · (W · Aᵀ). The second result array is one block,
  written back after the last point, and holds the weight. After the region the first result is
  transposed, which is the layer's result in its streaming form.
-/
import proofs.«101016_g69372311765224_cont_9to1_m_644_20_alg».proof.Proof.KernelIdealData
import proofs.«101016_g69372311765224_cont_9to1_m_644_20_alg».proof.Proof.KernelPayload
import proofs.«101016_g69372311765224_cont_9to1_m_644_20_alg».proof.Proof.Spec

set_option maxRecDepth 16384

noncomputable section

open scoped BigOperators

namespace Cert.KernelIdeal.Body

open Cert.KernelIdeal Cert.KernelIdeal.Gen Cert.KernelIdeal.Payload Cert.GraphConv
open Idealize.ShloMosaic Idealize.ShloMosaic.TcCoe Idealize.ShloMosaic.Tactic Idealize.ShloMosaic.ValueIdx
open Idealize.ShloMosaic.StableHlo
open Idealize.SL Idealize.SL.Sem
open Idealize.ShloMosaic.Pipeline (Dat Cfg Window)

variable (m : (ℓ : Loc nD τ sig) → Buf (Elt Ideal) ℓ)

/-! ## Where the blocks lie -/

/-- The index maps and the cuts, decided over the five points: the row blocks of the node features and
of the first result are block t at point t, ending at row (t + 1) · 24576 or at the array's last row,
whichever comes first, and holding all 128 columns; the other three windows are one block each, the
whole 128 × 128 array. -/
theorem where_blocks : ∀ t : Fin cfg0.N,
    win0_0.index t (0 : Fin 2) = t.val ∧ win0_0.index t (1 : Fin 2) = 0
    ∧ win0_0.index t (0 : Fin 2) * 24576 + win0_0.xsize (grid0.coords t) (0 : Fin 2) = min ((t.val + 1) * 24576) 100000
    ∧ win0_0.xsize (grid0.coords t) (1 : Fin 2) = 128
    ∧ win0_3.index t (0 : Fin 2) = t.val ∧ win0_3.index t (1 : Fin 2) = 0
    ∧ win0_3.index t (0 : Fin 2) * 24576 + win0_3.xsize (grid0.coords t) (0 : Fin 2) = min ((t.val + 1) * 24576) 100000
    ∧ win0_3.xsize (grid0.coords t) (1 : Fin 2) = 128
    ∧ win0_1.index t (0 : Fin 2) = 0 ∧ win0_1.index t (1 : Fin 2) = 0
    ∧ win0_2.index t (0 : Fin 2) = 0 ∧ win0_2.index t (1 : Fin 2) = 0
    ∧ win0_4.index t (0 : Fin 2) = 0 ∧ win0_4.index t (1 : Fin 2) = 0
    ∧ win0_4.xsize (grid0.coords t) (0 : Fin 2) = 128 ∧ win0_4.xsize (grid0.coords t) (1 : Fin 2) = 128 :=
  (by decide +kernel : ∀ t : Fin grid0.N, _)

/-! ## The small matrices -/

/-- The weight's one block is the weight. -/
theorem weightBlock_eq (c : Dev nD) : weightBlock m c = V m c main_arg2 := by
  funext i
  obtain ⟨-, -, -, -, -, -, -, -, -, -, e0, e1, -⟩ := where_blocks t0_0
  show V m c main_arg2 (((cfg0.win 2).blk t0_0).view.emb i) = V m c main_arg2 i
  refine congrArg _ (funext fun a => Fin.ext ?_)
  match a with
  | ⟨0, _⟩ => show win0_2.index t0_0 (0 : Fin 2) * 128 + 1 * (i 0).val = (i 0).val; omega
  | ⟨1, _⟩ => show win0_2.index t0_0 (1 : Fin 2) * 128 + 1 * (i 1).val = (i 1).val; omega

/-- The adjacency's one block is the adjacency. -/
theorem adjBlock_eq (c : Dev nD) : adjBlock m c = V m c main_arg1 := by
  funext i
  obtain ⟨-, -, -, -, -, -, -, -, e0, e1, -⟩ := where_blocks t0_0
  show V m c main_arg1 (((cfg0.win 1).blk t0_0).view.emb i) = V m c main_arg1 i
  refine congrArg _ (funext fun a => Fin.ext ?_)
  match a with
  | ⟨0, _⟩ => show win0_1.index t0_0 (0 : Fin 2) * 128 + 1 * (i 0).val = (i 0).val; omega
  | ⟨1, _⟩ => show win0_1.index t0_0 (1 : Fin 2) * 128 + 1 * (i 1).val = (i 1).val; omega

/-- The matrix the scratch carries is the specification's combined matrix W · Aᵀ of the weight and the adjacency. -/
theorem combined_eq (c : Dev nD) : combined m c = combine (V m c main_arg2) (V m c main_arg1) := by
  unfold combined
  rw [weightBlock_eq, adjBlock_eq, pay1_eq]

/-! ## The rows the first result's window writes back -/

/-- The fetched row block, at a row inside the array, is the node features at that row of the array:
row p of block t is row t · 24576 + p. -/
theorem rowsIn_apply (c : Dev nD) (t : Fin cfg0.N) (p : Fin 24576) (k : Fin 128) (n : Fin 100000)
    (hp : p.val < win0_0.xsize (grid0.coords t) (0 : Fin 2)) (hn : n.val = win0_0.index t (0 : Fin 2) * 24576 + p.val) :
    rowsIn m c t (ix2 p k) = V m c main_arg0 (ix2 n k) := by
  obtain ⟨-, e1, -⟩ := where_blocks t
  have hmoved : win0_0.moved (grid0.coords t) (ix2 p k) = true := by
    refine (win0_0.moved_iff (grid0.coords t) _).mpr ?_
    show ∀ a : Fin 2, _
    intro a
    match a with
    | ⟨0, _⟩ => exact hp
    | ⟨1, _⟩ => exact (xsize_col (grid0.coords t)).symm ▸ k.isLt
  unfold rowsIn Pipeline.Window.fill
  rw [dif_pos hmoved]
  show V m c main_arg0 (((cfg0.win 0).blk t).view.emb _) = V m c main_arg0 (ix2 n k)
  refine congrArg _ (funext fun a => Fin.ext ?_)
  match a with
  | ⟨0, _⟩ => show win0_0.index t (0 : Fin 2) * 24576 + 1 * p.val = n.val; omega
  | ⟨1, _⟩ => show win0_0.index t (1 : Fin 2) * 128 + 1 * k.val = k.val; omega

/-- The rows of X times a matrix, at row n and column b. -/
theorem rowsTimes_apply (X : SNodes.Idx → EReal) (C : SSq.Idx → EReal) (n : Fin 100000) (b : Fin 128) :
    rowsTimes X C (ix2 n b) = ∑ k : Fin 128, X (ix2 n k) * C (ix2 k b) := rfl

/-- What point t writes back to the first result is block t of the rows of X times the combined matrix. -/
theorem flushed3_eq (c : Dev nD) (t : Fin cfg0.N) :
    (dats m 0 c).flushed 3 t = ((cfg0.win 3).blk t).view.read (Elt Ideal)
      (rowsTimes (V m c main_arg0) (combine (V m c main_arg2) (V m c main_arg1))) := by
  obtain ⟨e0, e1, e2, e3, e4, e5, e6, e7, -⟩ := where_blocks t
  funext y
  have hp : (y 0).val < 24576 := Nat.lt_of_lt_of_le (y 0).isLt (win0_3.xsize_le (grid0.coords t) 0)
  have hb : (y 1).val < 128 := Nat.lt_of_lt_of_le (y 1).isLt (win0_3.xsize_le (grid0.coords t) 1)
  have hy0 : (y 0).val < win0_3.xsize (grid0.coords t) (0 : Fin 2) := (y 0).isLt
  have hn : win0_3.index t (0 : Fin 2) * 24576 + (y 0).val < 100000 := by omega
  have hj : win0_3.xinj (grid0.coords t) y = ix2 (⟨(y 0).val, hp⟩ : Fin 24576) (⟨(y 1).val, hb⟩ : Fin 128) :=
    funext fun a => Fin.ext (by match a with | ⟨0, _⟩ => rfl | ⟨1, _⟩ => rfl)
  have he : ((cfg0.win 3).blk t).view.emb y
      = ix2 (⟨win0_3.index t (0 : Fin 2) * 24576 + (y 0).val, hn⟩ : Fin 100000) (⟨(y 1).val, hb⟩ : Fin 128) :=
    funext fun a => Fin.ext (by
      match a with
      | ⟨0, _⟩ =>
        show win0_3.index t (0 : Fin 2) * 24576 + 1 * (y 0).val = win0_3.index t (0 : Fin 2) * 24576 + (y 0).val
        rw [Nat.one_mul]
      | ⟨1, _⟩ =>
        show win0_3.index t (1 : Fin 2) * 128 + 1 * (y 1).val = (y 1).val
        rw [e5, Nat.zero_mul, Nat.zero_add, Nat.one_mul])
  show (cfg0.win 3).cut (grid0.coords t) ((dats m 0 c).after 3 t) y
      = rowsTimes (V m c main_arg0) (combine (V m c main_arg2) (V m c main_arg1)) (((cfg0.win 3).blk t).view.emb y)
  rw [after3, he, rowsTimes_apply]
  show k0_pay2 (F := Ideal) (rowsIn m c t) (combined m c) (win0_3.xinj (grid0.coords t) y) = _
  rw [hj, pay2_apply, combined_eq]
  refine Finset.sum_congr rfl fun k _ => ?_
  rw [rowsIn_apply m c t ⟨(y 0).val, hp⟩ k ⟨win0_3.index t (0 : Fin 2) * 24576 + (y 0).val, hn⟩
    (by show (y 0).val < _; omega) (by show win0_3.index t (0 : Fin 2) * 24576 + (y 0).val = win0_0.index t (0 : Fin 2) * 24576 + (y 0).val; rw [e4, e0])]

/-- An index of the first result is in point t's block iff each coordinate is in the block's range on its axis,
the range cut at the array's end. -/
theorem mem_rows (t : Fin cfg0.N) (i : S100000x128.Idx) :
    i ∈ ((cfg0.win 3).blk t).view.set ↔ ∀ a : Fin 2, win0_3.index t a * S24576x128.size a ≤ (i a).val
      ∧ (i a).val < win0_3.index t a * S24576x128.size a + win0_3.xsize (grid0.coords t) a := by
  show i ∈ ((View.whole main_v0_0).slice (win0_3.rect t)).set ↔ _
  rw [View.set_slice_whole, Rect.mem_set_unit]
  exact Iff.rfl

/-- Every row of the first result is in some point's block: row r is in block r / 24576. -/
theorem rows_covered (i : S100000x128.Idx) :
    ∃ t : Fin cfg0.N, (cfg0.win 3).flush t = true ∧ i ∈ ((cfg0.win 3).blk t).view.set := by
  have hr : (i 0).val < 100000 := (i 0).isLt
  have hc : (i 1).val < 128 := (i 1).isLt
  obtain ⟨t, ht⟩ : ∃ t : Fin cfg0.N, t.val = (i 0).val / 24576 :=
    ⟨⟨(i 0).val / 24576, by rw [show cfg0.N = 5 from N_0]; omega⟩, rfl⟩
  obtain ⟨-, -, -, -, e4, e5, e6, e7, -⟩ := where_blocks t
  refine ⟨t, flush0_3 t, (mem_rows t i).mpr fun a => ?_⟩
  match a with
  | ⟨0, _⟩ =>
    show win0_3.index t (0 : Fin 2) * 24576 ≤ (i 0).val
      ∧ (i 0).val < win0_3.index t (0 : Fin 2) * 24576 + win0_3.xsize (grid0.coords t) (0 : Fin 2)
    omega
  | ⟨1, _⟩ =>
    show win0_3.index t (1 : Fin 2) * 128 ≤ (i 1).val
      ∧ (i 1).val < win0_3.index t (1 : Fin 2) * 128 + win0_3.xsize (grid0.coords t) (1 : Fin 2)
    omega

/-- The first result array after the region: the rows of X times the combined matrix W · Aᵀ. -/
theorem result_rows (c : Dev nD) :
    (dats m 0 c).arrAt 3 cfg0.N = rowsTimes (V m c main_arg0) (combine (V m c main_arg2) (V m c main_arg1)) :=
  (dats m 0 c).arrAt_eq_of_cover 3 _ (fun t _ => flushed3_eq m c t) rows_covered

/-! ## The second result: the weight's copy -/

/-- What the last point writes back to the second result is the weight, whole. -/
theorem flushed4_eq (c : Dev nD) (t : Fin cfg0.N) :
    (dats m 0 c).flushed 4 t = ((cfg0.win 4).blk t).view.read (Elt Ideal) (V m c main_arg2 : S128x128.Idx → EReal) := by
  obtain ⟨-, -, -, -, -, -, -, -, -, -, -, -, e0, e1, -⟩ := where_blocks t
  funext y
  show (cfg0.win 4).cut (grid0.coords t) ((dats m 0 c).after 4 t) y
      = (V m c main_arg2 : S128x128.Idx → EReal) (((cfg0.win 4).blk t).view.emb y)
  rw [after4, weightBlock_eq]
  show (V m c main_arg2 : S128x128.Idx → EReal) (win0_4.xinj (grid0.coords t) y) = _
  refine congrArg _ (funext fun a => Fin.ext ?_)
  match a with
  | ⟨0, _⟩ => show (y 0).val = win0_4.index t (0 : Fin 2) * 128 + 1 * (y 0).val; omega
  | ⟨1, _⟩ => show (y 1).val = win0_4.index t (1 : Fin 2) * 128 + 1 * (y 1).val; omega

/-- An index of the second result is in a point's block iff each coordinate is in the block's range. -/
theorem mem_copy (t : Fin cfg0.N) (i : S128x128.Idx) :
    i ∈ ((cfg0.win 4).blk t).view.set ↔ ∀ a : Fin 2, win0_4.index t a * S128x128.size a ≤ (i a).val
      ∧ (i a).val < win0_4.index t a * S128x128.size a + win0_4.xsize (grid0.coords t) a := by
  show i ∈ ((View.whole main_v0_1).slice (win0_4.rect t)).set ↔ _
  rw [View.set_slice_whole, Rect.mem_set_unit]
  exact Iff.rfl

/-- The one block written back, at the last point, is the whole second result. -/
theorem copy_covered (i : S128x128.Idx) :
    ∃ t : Fin cfg0.N, (cfg0.win 4).flush t = true ∧ i ∈ ((cfg0.win 4).blk t).view.set := by
  have h0 : (i 0).val < 128 := (i 0).isLt
  have h1 : (i 1).val < 128 := (i 1).isLt
  obtain ⟨-, -, -, -, -, -, -, -, -, -, -, -, e0, e1, e2, e3⟩ := where_blocks t0_4
  refine ⟨t0_4, (flush0_4 t0_4).mpr rfl, (mem_copy t0_4 i).mpr fun a => ?_⟩
  match a with
  | ⟨0, _⟩ =>
    show win0_4.index t0_4 (0 : Fin 2) * 128 ≤ (i 0).val
      ∧ (i 0).val < win0_4.index t0_4 (0 : Fin 2) * 128 + win0_4.xsize (grid0.coords t0_4) (0 : Fin 2)
    omega
  | ⟨1, _⟩ =>
    show win0_4.index t0_4 (1 : Fin 2) * 128 ≤ (i 1).val
      ∧ (i 1).val < win0_4.index t0_4 (1 : Fin 2) * 128 + win0_4.xsize (grid0.coords t0_4) (1 : Fin 2)
    omega

/-- The second result array after the region: the weight. -/
theorem weight_copy (c : Dev nD) : (dats m 0 c).arrAt 4 cfg0.N = V m c main_arg2 :=
  (dats m 0 c).arrAt_eq_of_cover 4 _ (fun t _ => flushed4_eq m c t) copy_covered

/-! ## The transpose after the region -/

/-- The program's first result, the transpose of the first result array, is the layer's result in its
streaming form. -/
theorem result_transposed (c : Dev nD) :
    Pipeline.afterTail₀ cfgs (dats m) 0 (V0 m) [hostOps1] c main_v1
      = kernelOut (V m c main_arg0) (V m c main_arg2) (V m c main_arg1) := by
  unfold Pipeline.afterTail₀
  show StableHlo.after hostOps1 _ (Proc.devRef .tc main_v1) = _
  after_results
  rw [(Pipeline.withArrays_arr spec0 launch0.win.arr_inj c _ _ 3).trans (result_rows m c)]
  funext i
  rw [transpose_read]
  rfl

end Cert.KernelIdeal.Body

end
-- ==== Proof.lean ====
/-
  The graph-convolution kernel against its two-product reference, on the extended reals.

  The kernel streams the node features X (100000 × 128) through one pipeline of five row blocks: at the first grid point
  it forms the small matrix C = W · Aᵀ (weight times transposed adjacency) in a scratch and returns a copy of the weight;
  at every point it writes the block's rows of X · C; the line after the region transposes the result. The reference forms
  X · W, transposes it and multiplies by A from the left. Index by index the kernel's result is
  Σ_k X (n, k) · Σ_j W (k, j) · A (m, j) and the reference's Σ_j A (m, j) · Σ_k X (n, k) · W (k, j): equal by
  distributivity and an exchange of two finite sums, which hold where every entry is a real number — what the
  precondition (every input finite) gives. The second result is the weight itself on both sides.

  The modules: the two functions and the law between them (Spec, SpecLaw); the reference's run read back as the
  two-product function (RefValue, over the generated run and its read-at-an-index lemmas); finiteness from the
  precondition (Finite); the kernel's body run in its two control cases, the proof data of its pipeline and the
  body at a grid point (Step, Data, for both the printed kernel and its idealization); the idealized kernel's run
  and the arrays it leaves (Run, KernelPayload, KernelIdealValue); the printed kernel's frame (KernelFrame).
-/
import proofs.«101016_g69372311765224_cont_9to1_m_644_20_alg».proof.Defs
import proofs.«101016_g69372311765224_cont_9to1_m_644_20_alg».proof.Proof.Gen.Kernel
import proofs.«101016_g69372311765224_cont_9to1_m_644_20_alg».proof.Proof.Gen.KernelIdeal
import proofs.«101016_g69372311765224_cont_9to1_m_644_20_alg».proof.Proof.Gen.ReferenceIdeal
import proofs.«101016_g69372311765224_cont_9to1_m_644_20_alg».proof.Proof.Gen.Pre_finite_inputs
import proofs.«101016_g69372311765224_cont_9to1_m_644_20_alg».proof.Proof.Gen.ReferenceIdeal.Run
import proofs.«101016_g69372311765224_cont_9to1_m_644_20_alg».proof.Proof.Gen.ReferenceIdeal.Read
import proofs.«101016_g69372311765224_cont_9to1_m_644_20_alg».proof.Proof.SpecLaw
import proofs.«101016_g69372311765224_cont_9to1_m_644_20_alg».proof.Proof.RefValue
import proofs.«101016_g69372311765224_cont_9to1_m_644_20_alg».proof.Proof.Finite
import proofs.«101016_g69372311765224_cont_9to1_m_644_20_alg».proof.Proof.KernelFrame
import proofs.«101016_g69372311765224_cont_9to1_m_644_20_alg».proof.Proof.KernelIdealRun
import proofs.«101016_g69372311765224_cont_9to1_m_644_20_alg».proof.Proof.KernelPayload
import proofs.«101016_g69372311765224_cont_9to1_m_644_20_alg».proof.Proof.KernelIdealValue
import Idealize.ShloMosaic.Adequacy
import Idealize.ShloMosaic.Init

noncomputable section

namespace Cert.Proof

open Idealize.ShloMosaic Idealize.ShloMosaic.TcCoe Idealize.SL.Sem

/-- The printed kernel runs and leaves its arguments as they were. -/
theorem frame_kernel : Cert.frame_Kernel := fun m ρ _ => Cert.Kernel.Body.frame m ρ

/-- On the extended reals a row of the product of the row block with the combined matrix is a sum over that row alone. -/
theorem rowLocal_ideal : Cert.KernelIdeal.Body.RowLocal Ideal :=
  fun i d d' g s => Cert.KernelIdeal.Payload.rowLocal i d d' g s

/-- The idealized kernel runs and leaves its arguments as they were. -/
theorem frame_kernelIdeal : Cert.frame_KernelIdeal := fun m ρ _ => Cert.KernelIdeal.Body.frame m ρ rowLocal_ideal

/-- The idealized reference runs and leaves its arguments as they were: its generated run with the results dropped. -/
theorem frame_referenceIdeal : Cert.frame_ReferenceIdeal := fun m ρ _ =>
  (θ_run Cert.ReferenceIdeal.defs _ _).mono (fun _ h c => ⟨(h c).2.2.1, (h c).2.2.2.1, (h c).2.2.2.2⟩)
    (Cert.ReferenceIdeal.Value.run (F := Ideal) m ρ)

/-- The two idealized programs, from memories agreeing on the arguments, end with equal results: the transposed product
    in its two arrangements, equal for finite entries, and the weight. -/
theorem algebraic : Cert.algebraic_KernelIdeal_ReferenceIdeal := by
  intro m ρ m' ρ' hpre hagree
  refine ⟨fun c => Cert.GraphConv.kernelOut (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg1)),
    fun c => m ((c.tc : Thread Cert.KernelIdeal.nD Cert.KernelIdeal.τ).loc Cert.KernelIdeal.main_arg2), ?_, ?_⟩
  · refine (θ_run Cert.KernelIdeal.defs _ _).mono (fun r h c => ⟨?_, ?_, ?_, ?_, ?_⟩)
      (Cert.KernelIdeal.Body.run_main m ρ rowLocal_ideal)
    · exact ((h c).2 Cert.KernelIdeal.main_v1 (Pipeline.mem_restRefs_of Cert.KernelIdeal.main_v1 rfl (by decide))).trans
        (Cert.KernelIdeal.Body.result_transposed m c)
    · exact ((h c).1 4).trans (Cert.KernelIdeal.Body.weight_copy m c)
    · exact ((h c).1 0).trans (((Cert.KernelIdeal.Body.dats m 0 c).arrAt_in 0 rfl _).trans (Cert.KernelIdeal.Body.A_eq m c 0))
    · exact ((h c).1 1).trans (((Cert.KernelIdeal.Body.dats m 0 c).arrAt_in 1 rfl _).trans (Cert.KernelIdeal.Body.A_eq m c 1))
    · exact ((h c).1 2).trans (((Cert.KernelIdeal.Body.dats m 0 c).arrAt_in 2 rfl _).trans (Cert.KernelIdeal.Body.A_eq m c 2))
  · refine (θ_run Cert.ReferenceIdeal.defs _ _).mono (fun r h c => ⟨?_, ?_, (h c).2.2.1, (h c).2.2.2.1, (h c).2.2.2.2⟩)
      (Cert.ReferenceIdeal.Value.run (F := Ideal) m' ρ')
    · obtain ⟨hX, hA, hW⟩ := Cert.Finite.finite_of_fn _ _ _ (hpre c)
      rw [(h c).1, Cert.ReferenceIdeal.Read.val_main_v2_eq, Cert.ReferenceIdeal.RefValue.val_main_v2_eq_refOut,
        (hagree c).1, (hagree c).2.1, (hagree c).2.2]
      exact Cert.GraphConv.refOut_eq_kernelOut _ _ _ hX hW hA
    · exact ((h c).2.1).trans (hagree c).2.2

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
